-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x512 : Shape := ⟨3, ![16, 1024, 512]⟩
abbrev S16x1024x1024 : Shape := ⟨3, ![16, 1024, 1024]⟩
abbrev S512x512 : Shape := ⟨2, ![512, 512]⟩
abbrev S512 : Shape := ⟨1, ![512]⟩
abbrev S_ : Shape := ⟨0, ![]⟩

class Facts : Prop where
  bcast_S_S16x1024x512 : S_.BroadcastsInDim S16x1024x512 (![] : Fin 0 → Fin S16x1024x512.rank)
  reducesTo_S16x1024x512_S_d0_1_2 : S16x1024x512.ReducesTo [0, 1, 2] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_arg11 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  main_v58

def fn_part2 {F : FTy → Type} [FloatOps F] (main_arg7 : FVec F S512 .f32) (main_arg8 : FVec F S512x512 .f32) (main_arg9 : FVec F S512 .f32) (main_arg10 : FVec F S512x512 .f32) (main_arg11 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_v48 main_v49 main_v50

def fn_part1 {F : FTy → Type} [FloatOps F] (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_v13 : IVec S_ 1) (main_v16 : IVec S16x1024x1024 1) : IVec S_ 1 :=
  let main_c_5 : IVec S_ 1 := constantI S_ 1 1#1
  let main_v17 : IVec S_ 1 := (fun x v => Host.reduce IntOp.andi x v reducesTo_S16x1024x1024_S_d0_1_2 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16x1024x512 .f32) (main_arg1 : FVec F S16x1024x512 .f32) (main_arg2 : FVec F S16x1024x512 .f32) (main_arg3 : FVec F S16x1024x1024 .f32) (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) : IVec S_ 1 :=
  let main_v0 : FVec F S16x1024x512 .f32 := Host.absf main_arg0
  let main_cst : FVec F S_ .f32 := constant S_ .f32 0x7F800000#32
  let main_v1 : FVec F S16x1024x512 .f32 := broadcastInDim S16x1024x512 ![] bcast_S_S16x1024x512 main_cst
  let main_v2 : IVec S16x1024x512 1 := cmpf .olt main_v0 main_v1
  let main_c : IVec S_ 1 := constantI S_ 1 1#1
  let main_v3 : IVec S_ 1 := (fun x v => Host.reduce IntOp.andi x v reducesTo_S16x1024x512_S_d0_1_2 h_S_) main_v2 main_c
  let main_v4 : FVec F S16x1024x512 .f32 := Host.absf main_arg1
  let main_cst_0 : FVec F S_ .f32 := constant S_ .f32 0x7F800000#32
  let main_v5 : FVec F S16x1024x512 .f32 := broadcastInDim S16x1024x512 ![] bcast_S_S16x1024x512 main_cst_0
  let main_v6 : IVec S16x1024x512 1 := cmpf .olt main_v4 main_v5
  let main_c_1 : IVec S_ 1 := constantI S_ 1 1#1
  let main_v7 : IVec S_ 1 := (fun x v => Host.reduce IntOp.andi x v reducesTo_S16x1024x512_S_d0_1_2 h_S_) main_v6 main_c_1
  let main_v8 : IVec S_ 1 := andi main_v3 main_v7
  let main_v9 : FVec F S16x1024x512 .f32 := Host.absf main_arg2
  let main_cst_2 : FVec F S_ .f32 := constant S_ .f32 0x7F800000#32
  let main_v10 : FVec F S16x1024x512 .f32 := broadcastInDim S16x1024x512 ![] bcast_S_S16x1024x512 main_cst_2
  let main_v11 : IVec S16x1024x512 1 := cmpf .olt main_v9 main_v10
  let main_c_3 : IVec S_ 1 := constantI S_ 1 1#1
  let main_v12 : IVec S_ 1 := (fun x v => Host.reduce IntOp.andi x v reducesTo_S16x1024x512_S_d0_1_2 h_S_) main_v11 main_c_3
  let main_v13 : IVec S_ 1 := andi main_v8 main_v12
  let main_v14 : FVec F S16x1024x1024 .f32 := Host.absf main_arg3
  let main_cst_4 : FVec F S_ .f32 := constant S_ .f32 0x7F800000#32
  let main_v15 : FVec F S16x1024x1024 .f32 := broadcastInDim S16x1024x1024 ![] bcast_S_S16x1024x1024 main_cst_4
  let main_v16 : IVec S16x1024x1024 1 := cmpf .olt main_v14 main_v15
  fn_part1 (F := F) main_arg4 main_arg5 main_arg6 main_arg7 main_arg8 main_arg9 main_arg10 main_arg11 main_v13 main_v16
-- ==== Kernel.lean ====
abbrev S16x1024x512 : Shape := ⟨3, ![16, 1024, 512]⟩
abbrev S16x1024x1024 : Shape := ⟨3, ![16, 1024, 1024]⟩
abbrev S512x512 : Shape := ⟨2, ![512, 512]⟩
abbrev S512 : Shape := ⟨1, ![512]⟩
abbrev S1x512 : Shape := ⟨2, ![1, 512]⟩
abbrev S1x256x512 : Shape := ⟨3, ![1, 256, 512]⟩
abbrev S1x1024x512 : Shape := ⟨3, ![1, 1024, 512]⟩
abbrev S1x256x1024 : Shape := ⟨3, ![1, 256, 1024]⟩
abbrev S1024x512 : Shape := ⟨2, ![1024, 512]⟩
abbrev S256x512 : Shape := ⟨2, ![256, 512]⟩
abbrev S256x1024 : Shape := ⟨2, ![256, 1024]⟩
abbrev S256x64 : Shape := ⟨2, ![256, 64]⟩
abbrev S1024x64 : Shape := ⟨2, ![1024, 64]⟩
abbrev S256 : Shape := ⟨1, ![256]⟩
abbrev S256x1 : Shape := ⟨2, ![256, 1]⟩

abbrev nBuf : Space → Nat
  | .hbm => 17
  | .vmem => 21
  | .smem => 0
  | _ => 0

abbrev bufTy : (tb : Table) → Fin (tcTables nBuf tb) → BufTy
  | .hbm, ⟨0, _⟩ => ⟨S16x1024x512, .f32⟩
  | .hbm, ⟨1, _⟩ => ⟨S16x1024x512, .f32⟩
  | .hbm, ⟨2, _⟩ => ⟨S16x1024x512, .f32⟩
  | .hbm, ⟨3, _⟩ => ⟨S16x1024x1024, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S16x1024x512, .f32⟩
  | .local _ .vmem, ⟨0, _⟩ => ⟨S1x256x512, .f32⟩
  | .local _ .vmem, ⟨1, _⟩ => ⟨S1x256x512, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x256x1024, .f32⟩
  | .local _ .vmem, ⟨7, _⟩ => ⟨S1x256x1024, .f32⟩
  | .local _ .vmem, ⟨8, _⟩ => ⟨S512x512, .f32⟩
  | .local _ .vmem, ⟨9, _⟩ => ⟨S1x512, .f32⟩
  | .local _ .vmem, ⟨10, _⟩ => ⟨S512x512, .f32⟩
  | .local _ .vmem, ⟨11, _⟩ => ⟨S1x512, .f32⟩
  | .local _ .vmem, ⟨12, _⟩ => ⟨S512x512, .f32⟩
  | .local _ .vmem, ⟨13, _⟩ => ⟨S1x512, .f32⟩
  | .local _ .vmem, ⟨14, _⟩ => ⟨S512x512, .f32⟩
  | .local _ .vmem, ⟨15, _⟩ => ⟨S1x512, .f32⟩
  | .local _ .vmem, ⟨16, _⟩ => ⟨S1x256x512, .f32⟩
  | .local _ .vmem, ⟨17, _⟩ => ⟨S1x256x512, .f32⟩
  | .local _ .vmem, ⟨18, _⟩ => ⟨S1024x512, .bf16⟩
  | .local _ .vmem, ⟨19, _⟩ => ⟨S1024x512, .bf16⟩
  | .local _ .vmem, ⟨20, _⟩ => ⟨S256x512, .bf16⟩
  | _, _ => ⟨S16x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

class Facts₀ : Prop where
  shapeCasts_S512_S1x512 : S512.ShapeCasts S1x512
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  packedbf16_S1024x512_S1024x512_0_0 : (Rect.unit (s := S1024x512) ![0, 0] S1024x512.size inb_S1024x512_S1024x512_0_0).PackedRows (EltTy.packing .bf16)
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  broadcasts_S1x512_S256x512 : S1x512.Broadcasts S256x512
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  slices_S256x512_o0_0_S256x64 : S256x512.Slices ![0, 0] S256x64
  inb_S1024x512_S1024x64_0_0 : ∀ a, (![0, 0] : Fin 2 → Nat) a + S1024x64.size a ≤ S1024x512.size a
  h_S1024x64 : 0 < S1024x64.numel
  reduces_S256x1024_S256 : S256x1024.Reduces [1] S256
  shapeCasts_S256_S256x1 : S256.ShapeCasts S256x1
  broadcasts_S256x1_S256x1024 : S256x1.Broadcasts S256x1024
  inb_S256x512_S256x64_0_0 : ∀ a, (![0, 0] : Fin 2 → Nat) a + S256x64.size a ≤ S256x512.size a
  h_S256x64 : 0 < S256x64.numel
  shapeCasts_S256x64_S256x64 : S256x64.ShapeCasts S256x64
  packedbf16_S256x512_S256x64_0_0 : (Rect.unit (s := S256x512) ![0, 0] S256x64.size inb_S256x512_S256x64_0_0).PackedRows (EltTy.packing .bf16)
  slices_S256x512_o0_64_S256x64 : S256x512.Slices ![0, 64] S256x64
  inb_S1024x512_S1024x64_0_64 : ∀ a, (![0, 64] : Fin 2 → Nat) a + S1024x64.size a ≤ S1024x512.size a
  inb_S256x512_S256x64_0_64 : ∀ a, (![0, 64] : Fin 2 → Nat) a + S256x64.size a ≤ S256x512.size a
  packedbf16_S256x512_S256x64_0_64 : (Rect.unit (s := S256x512) ![0, 64] S256x64.size inb_S256x512_S256x64_0_64).PackedRows (EltTy.packing .bf16)
  slices_S256x512_o0_128_S256x64 : S256x512.Slices ![0, 128] S256x64
  inb_S1024x512_S1024x64_0_128 : ∀ a, (![0, 128] : Fin 2 → Nat) a + S1024x64.size a ≤ S1024x512.size a
  inb_S256x512_S256x64_0_128 : ∀ a, (![0, 128] : Fin 2 → Nat) a + S256x64.size a ≤ S256x512.size a
  packedbf16_S256x512_S256x64_0_128 : (Rect.unit (s := S256x512) ![0, 128] S256x64.size inb_S256x512_S256x64_0_128).PackedRows (EltTy.packing .bf16)
  slices_S256x512_o0_192_S256x64 : S256x512.Slices ![0, 192] S256x64
  inb_S1024x512_S1024x64_0_192 : ∀ a, (![0, 192] : Fin 2 → Nat) a + S1024x64.size a ≤ S1024x512.size a
  inb_S256x512_S256x64_0_192 : ∀ a, (![0, 192] : Fin 2 → Nat) a + S256x64.size a ≤ S256x512.size a
  packedbf16_S256x512_S256x64_0_192 : (Rect.unit (s := S256x512) ![0, 192] S256x64.size inb_S256x512_S256x64_0_192).PackedRows (EltTy.packing .bf16)
  slices_S256x512_o0_256_S256x64 : S256x512.Slices ![0, 256] S256x64
  inb_S1024x512_S1024x64_0_256 : ∀ a, (![0, 256] : Fin 2 → Nat) a + S1024x64.size a ≤ S1024x512.size a
  inb_S256x512_S256x64_0_256 : ∀ a, (![0, 256] : Fin 2 → Nat) a + S256x64.size a ≤ S256x512.size a
  packedbf16_S256x512_S256x64_0_256 : (Rect.unit (s := S256x512) ![0, 256] S256x64.size inb_S256x512_S256x64_0_256).PackedRows (EltTy.packing .bf16)
  slices_S256x512_o0_320_S256x64 : S256x512.Slices ![0, 320] S256x64
  inb_S1024x512_S1024x64_0_320 : ∀ a, (![0, 320] : Fin 2 → Nat) a + S1024x64.size a ≤ S1024x512.size a
  inb_S256x512_S256x64_0_320 : ∀ a, (![0, 320] : Fin 2 → Nat) a + S256x64.size a ≤ S256x512.size a
  packedbf16_S256x512_S256x64_0_320 : (Rect.unit (s := S256x512) ![0, 320] S256x64.size inb_S256x512_S256x64_0_320).PackedRows (EltTy.packing .bf16)
  slices_S256x512_o0_384_S256x64 : S256x512.Slices ![0, 384] S256x64
  inb_S1024x512_S1024x64_0_384 : ∀ a, (![0, 384] : Fin 2 → Nat) a + S1024x64.size a ≤ S1024x512.size a
  inb_S256x512_S256x64_0_384 : ∀ a, (![0, 384] : Fin 2 → Nat) a + S256x64.size a ≤ S256x512.size a
  packedbf16_S256x512_S256x64_0_384 : (Rect.unit (s := S256x512) ![0, 384] S256x64.size inb_S256x512_S256x64_0_384).PackedRows (EltTy.packing .bf16)
  slices_S256x512_o0_448_S256x64 : S256x512.Slices ![0, 448] S256x64
  inb_S1024x512_S1024x64_0_448 : ∀ a, (![0, 448] : Fin 2 → Nat) a + S1024x64.size a ≤ S1024x512.size a
  inb_S256x512_S256x64_0_448 : ∀ a, (![0, 448] : Fin 2 → Nat) a + S256x64.size a ≤ S256x512.size a
  packedbf16_S256x512_S256x64_0_448 : (Rect.unit (s := S256x512) ![0, 448] S256x64.size inb_S256x512_S256x64_0_448).PackedRows (EltTy.packing .bf16)
  inb_S256x512_S256x512_0_0 : ∀ a, (![0, 0] : Fin 2 → Nat) a + S256x512.size a ≤ S256x512.size a
  h_S256x512 : 0 < S256x512.numel
  shapeCasts_S256x512_S1x256x512 : S256x512.ShapeCasts S1x256x512
  dot_S1024x512_S512x512_S1024x512_1_1_0_0_n_n_wf : DotDims.WF S1024x512 S512x512 S1024x512 [1] [1] [0] [0] [] []
  dot_S256x512_S512x512_S256x512_1_1_0_0_n_n_wf : DotDims.WF S256x512 S512x512 S256x512 [1] [1] [0] [0] [] []
  dot_S256x64_S1024x64_S256x1024_1_1_0_0_n_n_wf : DotDims.WF S256x64 S1024x64 S256x1024 [1] [1] [0] [0] [] []
  dot_S256x1024_S1024x64_S256x64_1_0_0_1_n_n_wf : DotDims.WF S256x1024 S1024x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S16x1024x512.size a
  hwx0_0 : ∀ i : grid0.Coords, EltTy.bits .f32 = 32 ∨ (Rect.block (s := S16x1024x512) S1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S16x1024x512.size a
  hwx0_1 : ∀ i : grid0.Coords, EltTy.bits .f32 = 32 ∨ (Rect.block (s := S16x1024x512) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S16x1024x512.size a
  hwx0_2 : ∀ i : grid0.Coords, EltTy.bits .f32 = 32 ∨ (Rect.block (s := S16x1024x512) S1x1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S16x1024x1024.size a
  hwx0_3 : ∀ i : grid0.Coords, EltTy.bits .f32 = 32 ∨ (Rect.block (s := S16x1024x1024) S1x256x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .f32 = 32 ∨ (Rect.block (s := S512x512) S512x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .f32 = 32 ∨ (Rect.block (s := S512x512) S512x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256x512.size a ≤ S16x1024x512.size a
  hwx0_12 : ∀ i : grid0.Coords, EltTy.bits .f32 = 32 ∨ (Rect.block (s := S16x1024x512) S1x256x512.size (cc0_transform_12 i) (hinb0_12 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf
def dot_S256x512_S512x512_S256x512_1_1_0_0_n_n : DotDims S256x512 S512x512 S256x512 where
  lhsContracting := [1]
  rhsContracting := [1]
  lhsNonContracting := [0]
  rhsNonContracting := [0]
  lhsBatch := []
  rhsBatch := []
  wf := dot_S256x512_S512x512_S256x512_1_1_0_0_n_n_wf
def dot_S256x64_S1024x64_S256x1024_1_1_0_0_n_n : DotDims S256x64 S1024x64 S256x1024 where
  lhsContracting := [1]
  rhsContracting := [1]
  lhsNonContracting := [0]
  rhsNonContracting := [0]
  lhsBatch := []
  rhsBatch := []
  wf := dot_S256x64_S1024x64_S256x1024_1_1_0_0_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf

abbrev win0_0 : Pipeline.Window sig grid0 :=
  Pipeline.Window.ofSpec (Memref.whole main_arg0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v3) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v4) S1x256x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16x1024x512 : Shape := ⟨3, ![16, 1024, 512]⟩
abbrev S16x1024x1024 : Shape := ⟨3, ![16, 1024, 1024]⟩
abbrev S512x512 : Shape := ⟨2, ![512, 512]⟩
abbrev S512 : Shape := ⟨1, ![512]⟩
abbrev S1x1x512 : Shape := ⟨3, ![1, 1, 512]⟩
abbrev S16x1024x8x64 : Shape := ⟨4, ![16, 1024, 8, 64]⟩
abbrev S16x8x1024x64 : Shape := ⟨4, ![16, 8, 1024, 64]⟩
abbrev S16x8x1024x1024 : Shape := ⟨4, ![16, 8, 1024, 1024]⟩
abbrev S_ : Shape := ⟨0, ![]⟩
abbrev S16x1x1024x1024 : Shape := ⟨4, ![16, 1, 1024, 1024]⟩
abbrev S16x8x1024 : Shape := ⟨3, ![16, 8, 1024]⟩
abbrev S16x8x1024x1 : Shape := ⟨4, ![16, 8, 1024, 1]⟩

abbrev nBuf : Space → Nat
  | .hbm => 60
  | .vmem => 0
  | .smem => 0
  | _ => 0

abbrev bufTy : (tb : Table) → Fin (tcTables nBuf tb) → BufTy
  | .hbm, ⟨0, _⟩ => ⟨S16x1024x512, .f32⟩
  | .hbm, ⟨1, _⟩ => ⟨S16x1024x512, .f32⟩
  | .hbm, ⟨2, _⟩ => ⟨S16x1024x512, .f32⟩
  | .hbm, ⟨3, _⟩ => ⟨S16x1024x1024, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S16x1024x512, .f32⟩
  | .hbm, ⟨13, _⟩ => ⟨S1x1x512, .f32⟩
  | .hbm, ⟨14, _⟩ => ⟨S16x1024x512, .f32⟩
  | .hbm, ⟨15, _⟩ => ⟨S16x1024x512, .f32⟩
  | .hbm, ⟨16, _⟩ => ⟨S16x1024x8x64, .f32⟩
  | .hbm, ⟨17, _⟩ => ⟨S16x8x1024x64, .f32⟩
  | .hbm, ⟨18, _⟩ => ⟨S16x1024x512, .f32⟩
  | .hbm, ⟨19, _⟩ => ⟨S1x1x512, .f32⟩
  | .hbm, ⟨20, _⟩ => ⟨S16x1024x512, .f32⟩
  | .hbm, ⟨21, _⟩ => ⟨S16x1024x512, .f32⟩
  | .hbm, ⟨22, _⟩ => ⟨S16x1024x8x64, .f32⟩
  | .hbm, ⟨23, _⟩ => ⟨S16x8x1024x64, .f32⟩
  | .hbm, ⟨24, _⟩ => ⟨S16x1024x512, .f32⟩
  | .hbm, ⟨25, _⟩ => ⟨S1x1x512, .f32⟩
  | .hbm, ⟨26, _⟩ => ⟨S16x1024x512, .f32⟩
  | .hbm, ⟨27, _⟩ => ⟨S16x1024x512, .f32⟩
  | .hbm, ⟨28, _⟩ => ⟨S16x1024x8x64, .f32⟩
  | .hbm, ⟨29, _⟩ => ⟨S16x8x1024x64, .f32⟩
  | .hbm, ⟨30, _⟩ => ⟨S16x8x1024x1024, .f32⟩
  | .hbm, ⟨31, _⟩ => ⟨S_, .f32⟩
  | .hbm, ⟨32, _⟩ => ⟨S16x8x1024x1024, .f32⟩
  | .hbm, ⟨33, _⟩ => ⟨S16x8x1024x1024, .f32⟩
  | .hbm, ⟨34, _⟩ => ⟨S16x1x1024x1024, .f32⟩
  | .hbm, ⟨35, _⟩ => ⟨S16x8x1024x1024, .f32⟩
  | .hbm, ⟨36, _⟩ => ⟨S16x8x1024x1024, .f32⟩
  | .hbm, ⟨37, _⟩ => ⟨S_, .f32⟩
  | .hbm, ⟨38, _⟩ => ⟨S16x8x1024, .f32⟩
  | .hbm, ⟨39, _⟩ => ⟨S_, .f32⟩
  | .hbm, ⟨40, _⟩ => ⟨S16x8x1024, .f32⟩
  | .hbm, ⟨41, _⟩ => ⟨S16x8x1024, .f32⟩
  | .hbm, ⟨42, _⟩ => ⟨S16x8x1024x1, .f32⟩
  | .hbm, ⟨43, _⟩ => ⟨S16x8x1024x1024, .f32⟩
  | .hbm, ⟨44, _⟩ => ⟨S16x8x1024x1024, .f32⟩
  | .hbm, ⟨45, _⟩ => ⟨S16x8x1024x1024, .f32⟩
  | .hbm, ⟨46, _⟩ => ⟨S_, .f32⟩
  | .hbm, ⟨47, _⟩ => ⟨S16x8x1024, .f32⟩
  | .hbm, ⟨48, _⟩ => ⟨S16x8x1024x1, .f32⟩
  | .hbm, ⟨49, _⟩ => ⟨S16x8x1024x1024, .f32⟩
  | .hbm, ⟨50, _⟩ => ⟨S16x8x1024x1024, .f32⟩
  | .hbm, ⟨51, _⟩ => ⟨S16x8x1024x1024, .f32⟩
  | .hbm, ⟨52, _⟩ => ⟨S16x8x1024x1024, .f32⟩
  | .hbm, ⟨53, _⟩ => ⟨S16x8x1024x64, .f32⟩
  | .hbm, ⟨54, _⟩ => ⟨S16x1024x8x64, .f32⟩
  | .hbm, ⟨55, _⟩ => ⟨S16x1024x512, .f32⟩
  | .hbm, ⟨56, _⟩ => ⟨S16x1024x512, .f32⟩
  | .hbm, ⟨57, _⟩ => ⟨S1x1x512, .f32⟩
  | .hbm, ⟨58, _⟩ => ⟨S16x1024x512, .f32⟩
  | .hbm, ⟨59, _⟩ => ⟨S16x1024x512, .f32⟩
  | _, _ => ⟨S16x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_0 : Ref sig .tc := ⟨.hbm, 37, rfl⟩
abbrev main_v24 : Ref sig .tc := ⟨.hbm, 38, rfl⟩
abbrev main_cst_1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S16x1024x512_0_1_2 : S1x1x512.BroadcastsInDim S16x1024x512 (![0, 1, 2] : Fin 3 → Fin S16x1024x512.rank)
  shapeCasts_S16x1024x512_S16x1024x8x64 : S16x1024x512.ShapeCasts S16x1024x8x64
  transposes_S16x1024x8x64_S16x8x1024x64_0_2_1_3 : S16x1024x8x64.Transposes [0, 2, 1, 3] S16x8x1024x64
  bcast_S_S16x8x1024x1024 : S_.BroadcastsInDim S16x8x1024x1024 (![] : Fin 0 → Fin S16x8x1024x1024.rank)
  bcast_S16x1024x1024_S16x1x1024x1024_0_2_3 : S16x1024x1024.BroadcastsInDim S16x1x1024x1024 (![0, 2, 3] : Fin 3 → Fin S16x1x1024x1024.rank)
  bcast_S16x1x1024x1024_S16x8x1024x1024_0_1_2_3 : S16x1x1024x1024.BroadcastsInDim S16x8x1024x1024 (![0, 1, 2, 3] : Fin 4 → Fin S16x8x1024x1024.rank)
  reducesTo_S16x8x1024x1024_S16x8x1024_d3 : S16x8x1024x1024.ReducesTo [3] S16x8x1024
  h_S_ : 0 < S_.numel
  bcast_S_S16x8x1024 : S_.BroadcastsInDim S16x8x1024 (![] : Fin 0 → Fin S16x8x1024.rank)
  bcast_S16x8x1024_S16x8x1024x1_0_1_2 : S16x8x1024.BroadcastsInDim S16x8x1024x1 (![0, 1, 2] : Fin 3 → Fin S16x8x1024x1.rank)
  bcast_S16x8x1024x1_S16x8x1024x1024_0_1_2_3 : S16x8x1024x1.BroadcastsInDim S16x8x1024x1024 (![0, 1, 2, 3] : Fin 4 → Fin S16x8x1024x1024.rank)
  transposes_S16x8x1024x64_S16x1024x8x64_0_2_1_3 : S16x8x1024x64.Transposes [0, 2, 1, 3] S16x1024x8x64
  shapeCasts_S16x1024x8x64_S16x1024x512 : S16x1024x8x64.ShapeCasts S16x1024x512
  dot_S16x1024x512_S512x512_S16x1024x512_2_1_01_0_n_n_wf : DotDims.WF S16x1024x512 S512x512 S16x1024x512 [2] [1] [0, 1] [0] [] []
  dot_S16x8x1024x64_S16x8x1024x64_S16x8x1024x1024_3_3_2_2_01_01_wf : DotDims.WF S16x8x1024x64 S16x8x1024x64 S16x8x1024x1024 [3] [3] [2] [2] [0, 1] [0, 1]
  dot_S16x8x1024x1024_S16x8x1024x64_S16x8x1024x64_3_2_2_3_01_01_wf : DotDims.WF S16x8x1024x1024 S16x8x1024x64 S16x8x1024x64 [3] [2] [2] [3] [0, 1] [0, 1]

variable [Facts₀]

def dot_S16x1024x512_S512x512_S16x1024x512_2_1_01_0_n_n : DotDims S16x1024x512 S512x512 S16x1024x512 where
  lhsContracting := [2]
  rhsContracting := [1]
  lhsNonContracting := [0, 1]
  rhsNonContracting := [0]
  lhsBatch := []
  rhsBatch := []
  wf := dot_S16x1024x512_S512x512_S16x1024x512_2_1_01_0_n_n_wf
def dot_S16x8x1024x64_S16x8x1024x64_S16x8x1024x1024_3_3_2_2_01_01 : DotDims S16x8x1024x64 S16x8x1024x64 S16x8x1024x1024 where
  lhsContracting := [3]
  rhsContracting := [3]
  lhsNonContracting := [2]
  rhsNonContracting := [2]
  lhsBatch := [0, 1]
  rhsBatch := [0, 1]
  wf := dot_S16x8x1024x64_S16x8x1024x64_S16x8x1024x1024_3_3_2_2_01_01_wf
def dot_S16x8x1024x1024_S16x8x1024x64_S16x8x1024x64_3_2_2_3_01_01 : DotDims S16x8x1024x1024 S16x8x1024x64 S16x8x1024x64 where
  lhsContracting := [3]
  rhsContracting := [2]
  lhsNonContracting := [2]
  rhsNonContracting := [3]
  lhsBatch := [0, 1]
  rhsBatch := [0, 1]
  wf := dot_S16x8x1024x1024_S16x8x1024x64_S16x8x1024x64_3_2_2_3_01_01_wf

class Facts : Prop extends Facts₀ where

variable [Facts]
-- ==== Proof.KernelTerm.lean ====
/-
  The kernel's body as a pure term.

  At one grid point the body projects its 256 query rows (`k0_pay6`), and for each of the eight heads takes the head's 64
  lanes of the projected queries and of the cached projected keys and values, forms the scaled logits plus the distance
  block, takes the row softmax, multiplies by the distances again, and multiplies by the values; the eight 256 × 64
  results are stored side by side and the 256 × 512 array they form goes through the output projection. Here that
  structure is written once — `scores`, `soft`, `headStore` — the body's payloads are shown to be instances of it, and
  what the run leaves in the output block (and, at a batch's first point, in the two caches) is named `bodyOut`.
-/
import proofs.«102871_j65541200937161_2_alg».proof.Proof.Gen.KernelIdeal.Frame
import Idealize.ShloMosaic.Lib.Pipeline.Value

set_option maxRecDepth 16384

noncomputable section

namespace Cert.KernelIdeal.Bridge

open Cert.KernelIdeal Cert.KernelIdeal.Facts₀
open Cert.KernelIdeal.Gen (k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 out0_A_12 out0_B_12 sout0_A_0 sout0_A_1 kernelRun0_A kernelRun0_B cover0_A_12 cover0_B_12 scover0_A_0 scover0_A_1 cond0_0 VO0_12 VS0_0 VS0_1)
open Idealize.ShloMosaic Idealize.ShloMosaic.TcCoe Idealize.ShloMosaic.Tactic
open Idealize.SL Idealize.SL.Sem

variable {F : FTy → Type} [FloatOps F]

/-- The scaled inner products of 256 query rows with 1024 key rows, over one head's 64 lanes. -/
def scores (qs : FVec F S256x64 .f32) (ks : Vec F S1024x64 .bf16) : FVec F S256x1024 .f32 :=
  mulf (matmul dot_S256x64_S1024x64_S256x1024_1_1_0_0_n_n none (truncf .bf16 qs bitsLt_bf16_f32) ks (constant S256x1024 .f32 0x00000000#32))
    (broadcast S256x1024 (Scalar.ofBits .f32 0x3E000000#32))

/-- The row softmax of the scores plus the distances. -/
def soft (s D : FVec F S256x1024 .f32) : FVec F S256x1024 .f32 :=
  divf
    (exp (subf (addf s D) (broadcastTo S256x1024 (shapeCast S256x1 (multiReduction .maximumf [1] S256 (addf s D) 0xFF800000#32 reduces_S256x1024_S256 (.inl rfl) rfl) shapeCasts_S256_S256x1) broadcasts_S256x1_S256x1024)))
    (broadcastTo S256x1024 (shapeCast S256x1 (multiReduction .add [1] S256
      (exp (subf (addf s D) (broadcastTo S256x1024 (shapeCast S256x1 (multiReduction .maximumf [1] S256 (addf s D) 0xFF800000#32 reduces_S256x1024_S256 (.inl rfl) rfl) shapeCasts_S256_S256x1) broadcasts_S256x1_S256x1024)))
      0x00000000#32 reduces_S256x1024_S256 (.inl rfl) rfl) shapeCasts_S256_S256x1) broadcasts_S256x1_S256x1024)

/-- The softmax weights times the distances, times the head's values: what one head stores. -/
def headStore (w D : FVec F S256x1024 .f32) (vs : Vec F S1024x64 .bf16) : FVec F S256x64 .bf16 :=
  shapeCast S256x64 (truncf .bf16 (matmul dot_S256x1024_S1024x64_S256x64_1_0_0_1_n_n none (truncf .bf16 (mulf w D) bitsLt_bf16_f32) vs (constant S256x64 .f32 0x00000000#32)) bitsLt_bf16_f32) shapeCasts_S256x64_S256x64

/-- One head, from its query lanes, its key and value lanes and the distance block. -/
def headBlk (qs : FVec F S256x64 .f32) (ks vs : Vec F S1024x64 .bf16) (D : FVec F S256x1024 .f32) : FVec F S256x64 .bf16 :=
  headStore (soft (scores qs ks) D) D vs

/-- 64 lanes, from lane `o` on, of a cached 1024 × 512 array. -/
def cols (A : Vec F S1024x512 .bf16) (o : Nat) (inb : ∀ a, (![0, o] : Fin 2 → Nat) a + S1024x64.size a ≤ S1024x512.size a) :
    Vec F S1024x64 .bf16 :=
  fun j => A ((Rect.unit (s := S1024x512) ![0, o] S1024x64.size inb).toLoadRect.idx j)

/-! ## The body's payloads are instances -/

theorem pay8_eq (x4 : Vec F S512x512 .f32) (x0 : Vec F S1x256x512 .f32) (x5 : Vec F S1x512 .f32) (x3 : Vec F S1x256x1024 .f32) (ks : Vec F S1024x64 .bf16) :
    k0_pay8 x4 x0 x5 x3 ks = soft (scores (extractStridedSlice S256x64 ![0, 0] (k0_pay6 x4 x0 x5) slices_S256x512_o0_0_S256x64) ks) (k0_pay7 x3) := rfl
theorem pay9_eq (D : FVec F S256x1024 .f32) (vs : Vec F S1024x64 .bf16) (w : FVec F S256x1024 .f32) : k0_pay9 D vs w = headStore w D vs := rfl
theorem pay10_eq (Q : FVec F S256x512 .f32) (D : FVec F S256x1024 .f32) (ks vs : Vec F S1024x64 .bf16) :
    k0_pay10 Q D ks vs = headBlk (extractStridedSlice S256x64 ![0, 64] Q slices_S256x512_o0_64_S256x64) ks vs D := rfl
theorem pay11_eq (Q : FVec F S256x512 .f32) (ks : Vec F S1024x64 .bf16) :
    k0_pay11 Q ks = scores (extractStridedSlice S256x64 ![0, 128] Q slices_S256x512_o0_128_S256x64) ks := rfl
theorem pay12_eq (D : FVec F S256x1024 .f32) (vs : Vec F S1024x64 .bf16) (s : FVec F S256x1024 .f32) : k0_pay12 D vs s = headStore (soft s D) D vs := rfl
theorem pay13_eq (Q : FVec F S256x512 .f32) (D : FVec F S256x1024 .f32) (ks vs : Vec F S1024x64 .bf16) :
    k0_pay13 Q D ks vs = headBlk (extractStridedSlice S256x64 ![0, 192] Q slices_S256x512_o0_192_S256x64) ks vs D := rfl
theorem pay14_eq (Q : FVec F S256x512 .f32) : k0_pay14 Q = extractStridedSlice S256x64 ![0, 256] Q slices_S256x512_o0_256_S256x64 := rfl
theorem pay15_eq (D : FVec F S256x1024 .f32) (q : FVec F S256x64 .f32) (ks vs : Vec F S1024x64 .bf16) : k0_pay15 D q ks vs = headBlk q ks vs D := rfl
theorem pay16_eq (Q : FVec F S256x512 .f32) (D : FVec F S256x1024 .f32) (ks : Vec F S1024x64 .bf16) :
    k0_pay16 Q D ks = soft (scores (extractStridedSlice S256x64 ![0, 320] Q slices_S256x512_o0_320_S256x64) ks) D := rfl
theorem pay17_eq (D : FVec F S256x1024 .f32) (vs : Vec F S1024x64 .bf16) (w : FVec F S256x1024 .f32) : k0_pay17 D vs w = headStore w D vs := rfl
theorem pay18_eq (Q : FVec F S256x512 .f32) (D : FVec F S256x1024 .f32) (ks vs : Vec F S1024x64 .bf16) :
    k0_pay18 Q D ks vs = headBlk (extractStridedSlice S256x64 ![0, 384] Q slices_S256x512_o0_384_S256x64) ks vs D := rfl
theorem pay19_eq (Q : FVec F S256x512 .f32) (ks : Vec F S1024x64 .bf16) :
    k0_pay19 Q ks = scores (extractStridedSlice S256x64 ![0, 448] Q slices_S256x512_o0_448_S256x64) ks := rfl
theorem pay1_eq (D : FVec F S256x1024 .f32) (vs : Vec F S1024x64 .bf16) (s : FVec F S256x1024 .f32) : k0_pay1 D vs s = headStore (soft s D) D vs := rfl

/-! ## What the run leaves, named -/

theorem zero2 : (![0, 0] : Fin 2 → Nat) = fun _ => 0 := by funext a; fin_cases a <;> rfl
theorem zero3 : (![0, 0, 0] : Fin 3 → Nat) = fun _ => 0 := by funext a; fin_cases a <;> rfl

/-- The eight heads' stores into the 256 × 512 staging array, the last store first: head `h` fills lanes `64 h` to `64 h + 63`,
    from the query block `x0` (weights `x4`, bias row `x5`), the distance block `x3` and the two caches. -/
def headPieces (x4 : Vec F S512x512 .f32) (x0 : Vec F S1x256x512 .f32) (x5 : Vec F S1x512 .f32) (x3 : Vec F S1x256x1024 .f32)
    (KS VS : Vec F S1024x512 .bf16) : List (View.Piece (Elt F) S256x512 .bf16) :=
  [⟨Rect.unit (s := S256x512) ![0, 448] S256x64.size inb_S256x512_S256x64_0_448, k0_pay1 (k0_pay7 x3) (cols VS 448 inb_S1024x512_S1024x64_0_448) (k0_pay19 (k0_pay6 x4 x0 x5) (cols KS 448 inb_S1024x512_S1024x64_0_448))⟩,
   ⟨Rect.unit (s := S256x512) ![0, 384] S256x64.size inb_S256x512_S256x64_0_384, k0_pay18 (k0_pay6 x4 x0 x5) (k0_pay7 x3) (cols KS 384 inb_S1024x512_S1024x64_0_384) (cols VS 384 inb_S1024x512_S1024x64_0_384)⟩,
   ⟨Rect.unit (s := S256x512) ![0, 320] S256x64.size inb_S256x512_S256x64_0_320, k0_pay17 (k0_pay7 x3) (cols VS 320 inb_S1024x512_S1024x64_0_320) (k0_pay16 (k0_pay6 x4 x0 x5) (k0_pay7 x3) (cols KS 320 inb_S1024x512_S1024x64_0_320))⟩,
   ⟨Rect.unit (s := S256x512) ![0, 256] S256x64.size inb_S256x512_S256x64_0_256, k0_pay15 (k0_pay7 x3) (k0_pay14 (k0_pay6 x4 x0 x5)) (cols KS 256 inb_S1024x512_S1024x64_0_256) (cols VS 256 inb_S1024x512_S1024x64_0_256)⟩,
   ⟨Rect.unit (s := S256x512) ![0, 192] S256x64.size inb_S256x512_S256x64_0_192, k0_pay13 (k0_pay6 x4 x0 x5) (k0_pay7 x3) (cols KS 192 inb_S1024x512_S1024x64_0_192) (cols VS 192 inb_S1024x512_S1024x64_0_192)⟩,
   ⟨Rect.unit (s := S256x512) ![0, 128] S256x64.size inb_S256x512_S256x64_0_128, k0_pay12 (k0_pay7 x3) (cols VS 128 inb_S1024x512_S1024x64_0_128) (k0_pay11 (k0_pay6 x4 x0 x5) (cols KS 128 inb_S1024x512_S1024x64_0_128))⟩,
   ⟨Rect.unit (s := S256x512) ![0, 64] S256x64.size inb_S256x512_S256x64_0_64, k0_pay10 (k0_pay6 x4 x0 x5) (k0_pay7 x3) (cols KS 64 inb_S1024x512_S1024x64_0_64) (cols VS 64 inb_S1024x512_S1024x64_0_64)⟩,
   ⟨Rect.unit (s := S256x512) ![0, 0] S256x64.size inb_S256x512_S256x64_0_0, k0_pay9 (k0_pay7 x3) (cols VS 0 inb_S1024x512_S1024x64_0_0) (k0_pay8 x4 x0 x5 x3 (cols KS 0 inb_S1024x512_S1024x64_0_0))⟩]

/-- The output block of one grid point: the heads' array through the output projection (weights `x10`, bias row `x11`). -/
def bodyOut (x0 : Vec F S1x256x512 .f32) (x3 : Vec F S1x256x1024 .f32) (x4 : Vec F S512x512 .f32) (x5 : Vec F S1x512 .f32)
    (x10 : Vec F S512x512 .f32) (x11 : Vec F S1x512 .f32) (KS VS : Vec F S1024x512 .bf16) : Vec F S1x256x512 .f32 :=
  k0_pay2 (k0_pay5 x10)
    (fun j => View.canon (headPieces x4 x0 x5 x3 KS VS) ((Rect.unit (s := S256x512) ![0, 0] ![256, 512] inb_S256x512_S256x512_0_0).toLoadRect.idx j))
    x11

set_option maxHeartbeats 800000 in
/-- At a batch's first point the body fills both caches and then computes the block from them. -/
theorem outA_eq (c : Dev nD) (i : grid0.Coords) (arg2 : Memref sig .tc .vmem S1x256x512 .f32) (harg2 : arg2.IsWhole) (arg3 : Memref sig .tc .vmem S1x1024x512 .f32) (harg3 : arg3.IsWhole) (arg4 : Memref sig .tc .vmem S1x1024x512 .f32) (harg4 : arg4.IsWhole) (arg5 : Memref sig .tc .vmem S1x256x1024 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S512x512 .f32) (harg12 : arg12.IsWhole) (arg13 : Memref sig .tc .vmem S1x512 .f32) (harg13 : arg13.IsWhole) (arg14 : Memref sig .tc .vmem S1x256x512 .f32) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S256x512 .bf16) (harg17 : arg17.IsWhole) (hc0 : cond0_0 i)
    (x0 : Vec F S1x256x512 .f32) (x1 : Vec F S1x1024x512 .f32) (x2 : Vec F S1x1024x512 .f32) (x3 : Vec F S1x256x1024 .f32) (x4 : Vec F S512x512 .f32) (x5 : Vec F S1x512 .f32) (x6 : Vec F S512x512 .f32) (x7 : Vec F S1x512 .f32) (x8 : Vec F S512x512 .f32) (x9 : Vec F S1x512 .f32) (x10 : Vec F S512x512 .f32) (x11 : Vec F S1x512 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 = bodyOut x0 x3 x4 x5 x10 x11 (k0_pay3 x6 x1 x7) (k0_pay4 x8 x2 x9) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11)]
  unfold kernelRun0_A
  dsimp only
  sl_unfold_words
  rw [View.canon_unit_zero (S := S1x256x512) zero3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x512) zero2, View.ld_unit_zero (S := S1x512) zero2, View.ld_unit_zero (S := S1x256x512) zero3, View.ld_unit_zero (S := S1x1024x512) zero3, View.ld_unit_zero (S := S1x256x1024) zero3, View.readCov_eq_canon', View.canon_unit_zero (S := S1024x512) zero2]
  rfl

set_option maxHeartbeats 800000 in
/-- At a later point of the batch the body leaves the caches alone and computes the block from what they hold. -/
theorem outB_eq (c : Dev nD) (i : grid0.Coords) (arg2 : Memref sig .tc .vmem S1x256x512 .f32) (harg2 : arg2.IsWhole) (arg3 : Memref sig .tc .vmem S1x1024x512 .f32) (harg3 : arg3.IsWhole) (arg4 : Memref sig .tc .vmem S1x1024x512 .f32) (harg4 : arg4.IsWhole) (arg5 : Memref sig .tc .vmem S1x256x1024 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S512x512 .f32) (harg12 : arg12.IsWhole) (arg13 : Memref sig .tc .vmem S1x512 .f32) (harg13 : arg13.IsWhole) (arg14 : Memref sig .tc .vmem S1x256x512 .f32) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S256x512 .bf16) (harg17 : arg17.IsWhole) (hc0 : ¬cond0_0 i)
    (x0 : Vec F S1x256x512 .f32) (x1 : Vec F S1x1024x512 .f32) (x2 : Vec F S1x1024x512 .f32) (x3 : Vec F S1x256x1024 .f32) (x4 : Vec F S512x512 .f32) (x5 : Vec F S1x512 .f32) (x6 : Vec F S512x512 .f32) (x7 : Vec F S1x512 .f32) (x8 : Vec F S512x512 .f32) (x9 : Vec F S1x512 .f32) (x10 : Vec F S512x512 .f32) (x11 : Vec F S1x512 .f32) (xs0 : Vec F S1024x512 .bf16) (xs1 : Vec F S1024x512 .bf16) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1 = bodyOut x0 x3 x4 x5 x10 x11 xs0 xs1 := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1)]
  unfold kernelRun0_B
  dsimp only
  sl_unfold_words
  rw [View.canon_unit_zero (S := S1x256x512) zero3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, harg16.read_unread, View.ld_unit_zero (S := S512x512) zero2, View.ld_unit_zero (S := S1x512) zero2, View.ld_unit_zero (S := S1x256x512) zero3, View.ld_unit_zero (S := S1x1024x512) zero3, View.ld_unit_zero (S := S1x256x1024) zero3, View.readCov_eq_canon', View.canon_unit_zero (S := S1024x512) zero2]
  rfl

set_option maxHeartbeats 800000 in
/-- What a batch's first point leaves in the key cache: the batch's projected keys. -/
theorem cacheK_eq (c : Dev nD) (i : grid0.Coords) (arg2 : Memref sig .tc .vmem S1x256x512 .f32) (harg2 : arg2.IsWhole) (arg3 : Memref sig .tc .vmem S1x1024x512 .f32) (harg3 : arg3.IsWhole) (arg4 : Memref sig .tc .vmem S1x1024x512 .f32) (harg4 : arg4.IsWhole) (arg5 : Memref sig .tc .vmem S1x256x1024 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S512x512 .f32) (harg12 : arg12.IsWhole) (arg13 : Memref sig .tc .vmem S1x512 .f32) (harg13 : arg13.IsWhole) (arg14 : Memref sig .tc .vmem S1x256x512 .f32) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S256x512 .bf16) (harg17 : arg17.IsWhole) (hc0 : cond0_0 i)
    (x0 : Vec F S1x256x512 .f32) (x1 : Vec F S1x1024x512 .f32) (x2 : Vec F S1x1024x512 .f32) (x3 : Vec F S1x256x1024 .f32) (x4 : Vec F S512x512 .f32) (x5 : Vec F S1x512 .f32) (x6 : Vec F S512x512 .f32) (x7 : Vec F S1x512 .f32) (x8 : Vec F S512x512 .f32) (x9 : Vec F S1x512 .f32) (x10 : Vec F S512x512 .f32) (x11 : Vec F S1x512 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 = k0_pay3 x6 x1 x7 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11)]
  unfold kernelRun0_A
  dsimp only
  sl_unfold_words
  rw [View.canon_unit_zero (S := S1024x512) zero2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x512) zero2, View.ld_unit_zero (S := S1x512) zero2, View.ld_unit_zero (S := S1x256x512) zero3, View.ld_unit_zero (S := S1x1024x512) zero3, View.ld_unit_zero (S := S1x256x1024) zero3]

set_option maxHeartbeats 800000 in
/-- … and in the value cache: the batch's projected values. -/
theorem cacheV_eq (c : Dev nD) (i : grid0.Coords) (arg2 : Memref sig .tc .vmem S1x256x512 .f32) (harg2 : arg2.IsWhole) (arg3 : Memref sig .tc .vmem S1x1024x512 .f32) (harg3 : arg3.IsWhole) (arg4 : Memref sig .tc .vmem S1x1024x512 .f32) (harg4 : arg4.IsWhole) (arg5 : Memref sig .tc .vmem S1x256x1024 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S512x512 .f32) (harg12 : arg12.IsWhole) (arg13 : Memref sig .tc .vmem S1x512 .f32) (harg13 : arg13.IsWhole) (arg14 : Memref sig .tc .vmem S1x256x512 .f32) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S256x512 .bf16) (harg17 : arg17.IsWhole) (hc0 : cond0_0 i)
    (x0 : Vec F S1x256x512 .f32) (x1 : Vec F S1x1024x512 .f32) (x2 : Vec F S1x1024x512 .f32) (x3 : Vec F S1x256x1024 .f32) (x4 : Vec F S512x512 .f32) (x5 : Vec F S1x512 .f32) (x6 : Vec F S512x512 .f32) (x7 : Vec F S1x512 .f32) (x8 : Vec F S512x512 .f32) (x9 : Vec F S1x512 .f32) (x10 : Vec F S512x512 .f32) (x11 : Vec F S1x512 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 = k0_pay4 x8 x2 x9 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11)]
  unfold kernelRun0_A
  dsimp only
  sl_unfold_words
  rw [View.canon_unit_zero (S := S1024x512) zero2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x512) zero2, View.ld_unit_zero (S := S1x512) zero2, View.ld_unit_zero (S := S1x256x512) zero3, View.ld_unit_zero (S := S1x1024x512) zero3, View.ld_unit_zero (S := S1x256x1024) zero3]

end Cert.KernelIdeal.Bridge

end
-- ==== Proof.LibDotRows.lean ====
/-
  The host's contraction of two arrays on their last axes, entry by entry.

  For an `M × K` array `l` and an `N × K` array `r`, the contraction whose dimension numbers name the LAST axis of
  each operand as the contracted one, the first axis of each as the free one, and no batch axis, is the `M × N` array
  of the inner products of the rows: entry `(p, q)` is `∑ k, l (p, k) · r (q, k)`. At the ideal values the host's
  contraction is a plain sum over the contraction's index set of the products of the two operands' entries; that index
  set has one axis of extent `K`, so the sum is re-indexed by `k : Fin K`, and at the `k`-th contraction index the left
  operand is read at `(p, k)` and the right operand at `(q, k)`.
-/
import Idealize.ShloMosaic.Lib.ValueIdx
import Idealize.ShloMosaic.PureOps.Ideal.Laws

noncomputable section

open scoped BigOperators

namespace Cert.Lib.DotRows

open Idealize.ShloMosaic Idealize.ShloMosaic.ValueIdx

variable {M K N : Nat}

/-- The left operand's index at result entry `(p, q)` and contraction coordinate `k` is `(p, k)`. -/
theorem lhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).lhsIdx (ix2 p q)
      ((contrEquiv1 _ K rfl rfl).symm k) = ix2 p k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.lhsIdx]; rfl
  | ⟨1, _⟩ => simp [DotDims.lhsIdx]; exact ck

/-- The right operand's index at result entry `(p, q)` and contraction coordinate `k` is `(q, k)`. -/
theorem rhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).rhsIdx (ix2 p q)
      ((contrEquiv1 _ K rfl rfl).symm k) = ix2 q k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.rhsIdx]; rfl
  | ⟨1, _⟩ => simp [DotDims.rhsIdx]; exact ck

/-- The host's contraction of an `M × K` array with an `N × K` array, each on its last axis (contracting axes `[1]` and
    `[1]`, free axes `[0]` and `[0]`, no batch axis; any proof `w` that these dimension numbers are well formed), read at
    entry `(p, q)` at the ideal values: the inner product of row `p` of the left operand with row `q` of the right one. -/
theorem dotGeneral_rows_apply {φ₁ φ₂ : FTy}
    (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (p : Fin M) (q : Fin N) :
    Host.dotGeneral (⟨[1], [1], [0], [0], [], [], w⟩ : DotDims ⟨2, ![M, K]⟩ ⟨2, ![N, K]⟩ ⟨2, ![M, N]⟩) prec l r (ix2 p q)
      = ∑ k : Fin K, l (ix2 p k) * r (ix2 q k) := by
  show FloatOps.dotGeneral _ prec _ l r (ix2 p q) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [lhsIdx_rows w p q k, rhsIdx_rows w p q k]

/-- The same for the library's record of these dimension numbers. -/
theorem dotGeneral_transposedRhs_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) :=
  dotGeneral_rows_apply (DotDims.transposedRhs M K N).wf prec l r p q

end Cert.Lib.DotRows

end
-- ==== Proof.LibBlockOps.lean ====
/-
  Rank-two blocks read at an entry, at the ideal values.

  * The product into zero of an `M × K` array with an `N × K` array, each contracted on its last axis: entry `(p, q)` is
    the inner product of row `p` of the first with row `q` of the second.
  * The same product plus a `1 × N` bias row repeated down the rows: a linear layer whose weight is stored output-major.
  * A reduction along the lanes of an `M × N` array: row `p`'s maximum is the fold of `max` over its `N` entries, its
    sum their sum.
  * `M` row values set up as an `M × 1` column and repeated along `N` lanes: entry `(p, q)` is row `p`'s value.
-/
import Idealize.ShloMosaic.Lib.ValueIdx
import Idealize.ShloMosaic.Lib.ValueLayout
import Idealize.ShloMosaic.Lib.Pipeline.Value
import Idealize.ShloMosaic.PureOps.Ideal.Laws
import proofs.«102871_j65541200937161_2_alg».proof.Proof.LibDotRows

noncomputable section

open scoped BigOperators

namespace Cert.Lib.BlockOps

open Idealize.ShloMosaic Idealize.ShloMosaic.ValueIdx

variable {M K N : Nat}

/-- The product of two arrays given by rows, at entry `(p, q)`: the inner product of the two rows. -/
theorem matmul_rows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂) (p : Fin M) (q : Fin N) :
    FloatOps.matmul (⟨[1], [1], [0], [0], [], [], w⟩ : DotDims ⟨2, ![M, K]⟩ ⟨2, ![N, K]⟩ ⟨2, ![M, N]⟩) prec l r
        (constant ⟨2, ![M, N]⟩ .f32 0x00000000#32) (ix2 p q)
      = ∑ k : Fin K, l (ix2 p k) * r (ix2 q k) := by
  rw [Ideal.matmul_constant_zero_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [Cert.Lib.DotRows.lhsIdx_rows w p q k, Cert.Lib.DotRows.rhsIdx_rows w p q k]

/-- A linear layer with the weight stored output-major, at entry `(p, q)`: `∑ k, l (p, k) · r (q, k) + b q`. -/
theorem linRows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) (p : Fin M) (q : Fin N) :
    addf (FloatOps.matmul (⟨[1], [1], [0], [0], [], [], w⟩ : DotDims ⟨2, ![M, K]⟩ ⟨2, ![N, K]⟩ ⟨2, ![M, N]⟩) prec l r
          (constant ⟨2, ![M, N]⟩ .f32 0x00000000#32))
        (broadcastTo ⟨2, ![M, N]⟩ (shapeCast ⟨2, ![1, N]⟩ b hc) hb) (ix2 p q)
      = (∑ k : Fin K, l (ix2 p k) * r (ix2 q k)) + b (ix2 (0 : Fin 1) q) := by
  rw [addf_apply, matmul_rows_apply, shapeCast_self, broadcastTo_1b_ab_apply]

/-- Over row `p`, the index with `k` put on the lane axis is `(p, k)`. -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- A row's maximum: the fold of `max`, from the seed's value, over the row's entries. -/
theorem rowMax_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun k => src (ix2 p k)) := by
  rw [Ideal.multiReduction_maximumf_single]
  exact congrArg (fun f => (Finset.univ : Finset (Fin N)).fold max (FloatOps.ofBits φ acc) f)
    (funext fun k => congrArg src (lift_row h p k))

/-- A row's sum. -/
theorem rowSum_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ k : Fin N, src (ix2 p k) := by
  rw [Ideal.multiReduction_add_single]
  exact Finset.sum_congr rfl fun k _ => congrArg src (lift_row h p k)

/-- `M` row values as an `M × 1` column repeated along `N` lanes: at `(p, q)`, row `p`'s value. -/
theorem colSpread_apply {α : Type} (v : (⟨1, ![M]⟩ : Shape).Idx → α) (hc : (⟨1, ![M]⟩ : Shape).ShapeCasts ⟨2, ![M, 1]⟩)
    (hb : (⟨2, ![M, 1]⟩ : Shape).Broadcasts ⟨2, ![M, N]⟩) (p : Fin M) (q : Fin N) :
    broadcastTo ⟨2, ![M, N]⟩ (shapeCast ⟨2, ![M, 1]⟩ v hc) hb (ix2 p q) = v (ix1 p) := by
  refine (broadcastTo_apply _ hb (ix2 p q) (ix2 p (0 : Fin 1)) (fun a => ?_)).trans ?_
  · match a with
    | ⟨0, _⟩ =>
      show p.val = if M = 1 then 0 else p.val
      split
      · have := p.isLt; omega
      · rfl
    | ⟨1, _⟩ => exact (if_pos rfl).symm
  · refine shapeCast_apply v hc (ix2 p (0 : Fin 1)) (ix1 p) ?_
    rw [Shape.rowMajor_val_one, Shape.rowMajor_val_two]
    show p.val = p.val * 1 + 0
    omega

end Cert.Lib.BlockOps

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.AttnSpec.lean ====
/-
  Multi-head attention with a distance bias, one query row at a time, over the extended reals.

  A query row `x` (512 numbers) is projected by a linear layer, cut into 8 heads of 64 lanes, and each head attends
  over the 1024 keys of its batch: the logit of key `m` is the inner product of the head's 64 query and key lanes, scaled
  by 1/8, plus the distance `δ m`; the weights are the softmax of the logits (each logit less the row's maximum,
  exponentiated, divided by the row's sum), then multiplied by the distance once more; the head's output lane `j` is the
  weighted sum of the values' lane `j`. The eight heads' outputs, side by side, go through the output linear layer.

  Everything is a function of coordinates, so a block of rows and a whole array instantiate the same terms.
-/
import Idealize.ShloMosaic.PureOps.Ideal
import Idealize.ShloMosaic.PureOps.Ideal.Laws
import Idealize.ShloMosaic.Lib.ValueIdx

noncomputable section

open scoped BigOperators

namespace Cert.AttnSpec

open Idealize.ShloMosaic

/-- Lane `e` of head `h` among the 512 model lanes. -/
def col (h : Fin 8) (e : Fin 64) : Fin 512 := ⟨64 * h.val + e.val, by have := h.isLt; have := e.isLt; omega⟩

/-- The head a model lane belongs to, and its lane inside the head. -/
def headOf (e : Fin 512) : Fin 8 := ⟨e.val / 64, by have := e.isLt; omega⟩
def laneOf (e : Fin 512) : Fin 64 := ⟨e.val % 64, Nat.mod_lt _ (by norm_num)⟩

theorem col_headOf_laneOf (e : Fin 512) : col (headOf e) (laneOf e) = e :=
  Fin.ext (by show 64 * (e.val / 64) + e.val % 64 = e.val; omega)

/-- A linear layer on one row: `x · Wᵀ + c`, the weight stored output-major. -/
def linRow (x : Fin 512 → EReal) (W : Fin 512 → Fin 512 → EReal) (c : Fin 512 → EReal) (f : Fin 512) : EReal :=
  (∑ e : Fin 512, x e * W f e) + c f

/-- The scale 1/8 and the seed of a row maximum, as the float words the programs carry. -/
def eighth : EReal := Ideal.ofBits .f32 0x3E000000#32
def negInf : EReal := Ideal.ofBits .f32 0xFF800000#32

/-- The logit of key `m` for one head's query lanes. -/
def logit (qs : Fin 64 → EReal) (ks : Fin 1024 → Fin 64 → EReal) (δ : Fin 1024 → EReal) (m : Fin 1024) : EReal :=
  (∑ e : Fin 64, qs e * ks m e) * eighth + δ m

/-- The row's largest logit. -/
def rowMax (qs : Fin 64 → EReal) (ks : Fin 1024 → Fin 64 → EReal) (δ : Fin 1024 → EReal) : EReal :=
  (Finset.univ : Finset (Fin 1024)).fold max negInf (logit qs ks δ)

/-- The exponential of a logit less the row's maximum. -/
def expo (qs : Fin 64 → EReal) (ks : Fin 1024 → Fin 64 → EReal) (δ : Fin 1024 → EReal) (m : Fin 1024) : EReal :=
  Ideal.exp (logit qs ks δ m - rowMax qs ks δ)

/-- The attention weight of key `m`: the softmax weight times the distance. -/
def weight (qs : Fin 64 → EReal) (ks : Fin 1024 → Fin 64 → EReal) (δ : Fin 1024 → EReal) (m : Fin 1024) : EReal :=
  Ideal.div (expo qs ks δ m) (∑ m' : Fin 1024, expo qs ks δ m') * δ m

/-- One head's output lane `j`. -/
def head (qs : Fin 64 → EReal) (ks vs : Fin 1024 → Fin 64 → EReal) (δ : Fin 1024 → EReal) (j : Fin 64) : EReal :=
  ∑ m : Fin 1024, weight qs ks δ m * vs m j

/-- The eight heads side by side: model lane `e` of the attention output of a projected query row `qp` against the
    batch's projected keys `kp` and values `vp`. -/
def heads (qp : Fin 512 → EReal) (kp vp : Fin 1024 → Fin 512 → EReal) (δ : Fin 1024 → EReal) (e : Fin 512) : EReal :=
  head (fun a => qp (col (headOf e) a)) (fun m a => kp m (col (headOf e) a)) (fun m a => vp m (col (headOf e) a)) δ (laneOf e)

/-- The whole layer on one query row `x`. -/
def attnRow (x : Fin 512 → EReal) (δ : Fin 1024 → EReal) (kp vp : Fin 1024 → Fin 512 → EReal)
    (Wq : Fin 512 → Fin 512 → EReal) (bq : Fin 512 → EReal) (Wp : Fin 512 → Fin 512 → EReal) (bp : Fin 512 → EReal)
    (f : Fin 512) : EReal :=
  linRow (heads (linRow x Wq bq) kp vp δ) Wp bp f

end Cert.AttnSpec

end
-- ==== Proof.KernelHead.lean ====
/-
  One head of the kernel's body, read at an entry at the ideal values.

  Row `r` of a head's stored 256 × 64 block depends on row `r` of the head's query lanes, on all 1024 rows of the head's key
  and value lanes, and on row `r` of the distance block: it is the specification's `head` of those.
-/
import proofs.«102871_j65541200937161_2_alg».proof.Proof.KernelTerm
import proofs.«102871_j65541200937161_2_alg».proof.Proof.LibBlockOps
import proofs.«102871_j65541200937161_2_alg».proof.Proof.LibPlainDot
import proofs.«102871_j65541200937161_2_alg».proof.Proof.AttnSpec

noncomputable section

open scoped BigOperators

namespace Cert.KernelIdeal.Bridge

open Cert.KernelIdeal Cert.KernelIdeal.Facts₀
open Idealize.ShloMosaic Idealize.ShloMosaic.ValueIdx
open Cert.AttnSpec
open Cert.KernelIdeal.Gen (k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19)

/-- An exponential at an index is the exponential of the element. -/
theorem exp_apply {s : Shape} {φ : FTy} (x : FVec Ideal s φ) (i : s.Idx) : exp x i = Ideal.exp (x i) := rfl

/-- The scaled inner products, at `(r, m)`. -/
theorem scores_apply (qs : FVec Ideal S256x64 .f32) (ks : Vec Ideal S1024x64 .bf16) (r : Fin 256) (m : Fin 1024) :
    scores qs ks (ix2 r m) = (∑ e : Fin 64, qs (ix2 r e) * ks (ix2 m e)) * eighth :=
  congrArg (· * eighth)
    (Cert.Lib.BlockOps.matmul_rows_apply (M := 256) (K := 64) (N := 1024) (φ₂ := .bf16) dot_S256x64_S1024x64_S256x1024_1_1_0_0_n_n_wf none
      (truncf .bf16 qs bitsLt_bf16_f32) ks r m)

/-- A row's maximum spread along the row, at `(r, q)`. -/
theorem rowMaxSpread_apply (L : FVec Ideal S256x1024 .f32) (r : Fin 256) (q : Fin 1024) :
    broadcastTo S256x1024 (shapeCast S256x1 (multiReduction .maximumf [1] S256 L 0xFF800000#32 reduces_S256x1024_S256 (.inl rfl) rfl) shapeCasts_S256_S256x1) broadcasts_S256x1_S256x1024 (ix2 r q)
      = (Finset.univ : Finset (Fin 1024)).fold max negInf (fun k => L (ix2 r k)) :=
  (Cert.Lib.BlockOps.colSpread_apply (M := 256) (N := 1024) _ shapeCasts_S256_S256x1 broadcasts_S256x1_S256x1024 r q).trans
    (Cert.Lib.BlockOps.rowMax_apply (M := 256) (N := 1024) L 0xFF800000#32 reduces_S256x1024_S256 (.inl rfl) rfl r)

/-- A row's sum spread along the row, at `(r, q)`. -/
theorem rowSumSpread_apply (E : FVec Ideal S256x1024 .f32) (r : Fin 256) (q : Fin 1024) :
    broadcastTo S256x1024 (shapeCast S256x1 (multiReduction .add [1] S256 E 0x00000000#32 reduces_S256x1024_S256 (.inl rfl) rfl) shapeCasts_S256_S256x1) broadcasts_S256x1_S256x1024 (ix2 r q)
      = ∑ k : Fin 1024, E (ix2 r k) :=
  (Cert.Lib.BlockOps.colSpread_apply (M := 256) (N := 1024) _ shapeCasts_S256_S256x1 broadcasts_S256x1_S256x1024 r q).trans
    (Cert.Lib.BlockOps.rowSum_apply (M := 256) (N := 1024) E 0x00000000#32 reduces_S256x1024_S256 (.inl rfl) rfl r)

/-- The row softmax of scores plus distances, at `(r, m)`. -/
theorem soft_apply (s D : FVec Ideal S256x1024 .f32) (r : Fin 256) (m : Fin 1024) :
    soft s D (ix2 r m) =
      Ideal.div (Ideal.exp ((s (ix2 r m) + D (ix2 r m)) - (Finset.univ : Finset (Fin 1024)).fold max negInf (fun k => s (ix2 r k) + D (ix2 r k))))
        (∑ m' : Fin 1024, Ideal.exp ((s (ix2 r m') + D (ix2 r m')) - (Finset.univ : Finset (Fin 1024)).fold max negInf (fun k => s (ix2 r k) + D (ix2 r k)))) := by
  unfold soft
  rw [divf_apply, rowSumSpread_apply, exp_apply, subf_apply, addf_apply, rowMaxSpread_apply]
  refine congrArg (Ideal.div _) (Finset.sum_congr rfl fun k _ => ?_)
  rw [exp_apply, subf_apply, addf_apply, rowMaxSpread_apply]
  rfl

/-- What a head stores, at `(r, j)`: the weighted sum of the values' lane `j`. -/
theorem headStore_apply (w D : FVec Ideal S256x1024 .f32) (vs : Vec Ideal S1024x64 .bf16) (r : Fin 256) (j : Fin 64) :
    headStore w D vs (ix2 r j) = ∑ m : Fin 1024, (w (ix2 r m) * D (ix2 r m)) * vs (ix2 m j) :=
  (congrFun (shapeCast_self _ shapeCasts_S256x64_S256x64) (ix2 r j)).trans
    (Cert.Lib.PlainDot.matmul_zero_apply (M := 256) (K := 1024) (N := 64) (φ₂ := .bf16) none (truncf .bf16 (mulf w D) bitsLt_bf16_f32) vs r j)

/-- One head's stored block, at `(r, j)`. -/
theorem headBlk_apply (qs : FVec Ideal S256x64 .f32) (ks vs : Vec Ideal S1024x64 .bf16) (D : FVec Ideal S256x1024 .f32)
    (r : Fin 256) (j : Fin 64) :
    headBlk qs ks vs D (ix2 r j)
      = head (fun a => qs (ix2 r a)) (fun m a => ks (ix2 m a)) (fun m a => vs (ix2 m a)) (fun m => D (ix2 r m)) j := by
  unfold headBlk
  rw [headStore_apply]
  unfold head weight expo rowMax logit
  simp only [soft_apply, scores_apply]

/-! ## The projections, the distance block and the output projection at an entry -/

/-- A shape cast onto the same shape, at an index. -/
theorem shapeCast_self_apply {s : Shape} {α : Type} (v : s.Idx → α) (h : s.ShapeCasts s) (i : s.Idx) : shapeCast s v h i = v i :=
  congrFun (shapeCast_self v h) i

/-- The projected query block, at `(r, f)`. -/
theorem pay6_apply (x4 : Vec Ideal S512x512 .f32) (x0 : Vec Ideal S1x256x512 .f32) (x5 : Vec Ideal S1x512 .f32) (r : Fin 256) (f : Fin 512) :
    k0_pay6 x4 x0 x5 (ix2 r f)
      = linRow (fun e => x0 (ix3 (0 : Fin 1) r e)) (fun f e => x4 (ix2 f e)) (fun f => x5 (ix2 (0 : Fin 1) f)) f := by
  refine (Cert.Lib.BlockOps.linRows_apply (M := 256) (K := 512) (N := 512) (φ₁ := .bf16) (φ₂ := .bf16) dot_S256x512_S512x512_S256x512_1_1_0_0_n_n_wf none
    (truncf .bf16 (shapeCast S256x512 x0 shapeCasts_S1x256x512_S256x512) bitsLt_bf16_f32) (truncf .bf16 x4 bitsLt_bf16_f32) x5
    shapeCasts_S1x512_S1x512 broadcasts_S1x512_S256x512 r f).trans ?_
  unfold linRow
  refine congrArg (· + x5 (ix2 (0 : Fin 1) f)) (Finset.sum_congr rfl fun k _ => ?_)
  exact congrArg (· * x4 (ix2 f k)) (shapeCast_1ab_ab_apply x0 shapeCasts_S1x256x512_S256x512 r k)

/-- The distance block, at `(r, m)`. -/
theorem pay7_apply (x3 : Vec Ideal S1x256x1024 .f32) (r : Fin 256) (m : Fin 1024) :
    k0_pay7 x3 (ix2 r m) = x3 (ix3 (0 : Fin 1) r m) :=
  shapeCast_1ab_ab_apply x3 shapeCasts_S1x256x1024_S256x1024 r m

/-- A batch's projected keys (or values), at `(m, f)`. -/
theorem pay3_apply (x6 : Vec Ideal S512x512 .f32) (x1 : Vec Ideal S1x1024x512 .f32) (x7 : Vec Ideal S1x512 .f32) (m : Fin 1024) (f : Fin 512) :
    k0_pay3 x6 x1 x7 (ix2 m f)
      = linRow (fun e => x1 (ix3 (0 : Fin 1) m e)) (fun f e => x6 (ix2 f e)) (fun f => x7 (ix2 (0 : Fin 1) f)) f := by
  dsimp only [k0_pay3]
  rw [shapeCast_self_apply]
  refine (Cert.Lib.BlockOps.linRows_apply (M := 1024) (K := 512) (N := 512) (φ₁ := .bf16) (φ₂ := .bf16) dot_S1024x512_S512x512_S1024x512_1_1_0_0_n_n_wf none
    (truncf .bf16 (shapeCast S1024x512 x1 shapeCasts_S1x1024x512_S1024x512) bitsLt_bf16_f32) (truncf .bf16 x6 bitsLt_bf16_f32) x7
    shapeCasts_S1x512_S1x512 broadcasts_S1x512_S1024x512 m f).trans ?_
  unfold linRow
  refine congrArg (· + x7 (ix2 (0 : Fin 1) f)) (Finset.sum_congr rfl fun k _ => ?_)
  exact congrArg (· * x6 (ix2 f k)) (shapeCast_1ab_ab_apply x1 shapeCasts_S1x1024x512_S1024x512 m k)

theorem pay4_apply (x8 : Vec Ideal S512x512 .f32) (x2 : Vec Ideal S1x1024x512 .f32) (x9 : Vec Ideal S1x512 .f32) (m : Fin 1024) (f : Fin 512) :
    k0_pay4 x8 x2 x9 (ix2 m f)
      = linRow (fun e => x2 (ix3 (0 : Fin 1) m e)) (fun f e => x8 (ix2 f e)) (fun f => x9 (ix2 (0 : Fin 1) f)) f :=
  pay3_apply x8 x2 x9 m f

/-- The output projection of a 256 × 512 array `C`, at `(0, r, f)`. -/
theorem pay2_apply (W : FVec Ideal S512x512 .bf16) (C : Vec Ideal S256x512 .bf16) (b : Vec Ideal S1x512 .f32) (u : Fin 1) (r : Fin 256) (f : Fin 512) :
    k0_pay2 W C b (ix3 u r f) = linRow (fun e => C (ix2 r e)) (fun f e => W (ix2 f e)) (fun f => b (ix2 (0 : Fin 1) f)) f :=
  (shapeCast_ab_1ab_apply _ shapeCasts_S256x512_S1x256x512 u r f).trans
    (Cert.Lib.BlockOps.linRows_apply (M := 256) (K := 512) (N := 512) (φ₁ := .bf16) (φ₂ := .bf16) dot_S256x512_S512x512_S256x512_1_1_0_0_n_n_wf none
      C W b shapeCasts_S1x512_S1x512 broadcasts_S1x512_S256x512 r f)

/-! ## Lanes of a head -/

theorem headOf_col (h : Fin 8) (a : Fin 64) : headOf (col h a) = h :=
  Fin.ext (by show (64 * h.val + a.val) / 64 = h.val; have := a.isLt; omega)
theorem laneOf_col (h : Fin 8) (a : Fin 64) : laneOf (col h a) = a :=
  Fin.ext (by show (64 * h.val + a.val) % 64 = a.val; have := a.isLt; omega)

/-- Lane `a` of the 64 lanes cut out from lane `64 h` on is model lane `col h a`. -/
theorem slice_col {α : Type} (X : S256x512.Idx → α) (h : Fin 8) (o : Nat) (ho : o = 64 * h.val) (hs : S256x512.Slices ![0, o] S256x64)
    (r : Fin 256) (a : Fin 64) : extractStridedSlice S256x64 ![0, o] X hs (ix2 r a) = X (ix2 r (col h a)) :=
  slice2_axis1_apply o X hs r a (col h a) (by show 64 * h.val + a.val = o + a.val; omega)

theorem cols_col (A : Vec Ideal S1024x512 .bf16) (h : Fin 8) (o : Nat) (ho : o = 64 * h.val)
    (inb : ∀ a, (![0, o] : Fin 2 → Nat) a + S1024x64.size a ≤ S1024x512.size a) (m : Fin 1024) (a : Fin 64) :
    cols A o inb (ix2 m a) = A (ix2 m (col h a)) := by
  unfold cols
  refine congrArg A (funext fun ax => Fin.ext ?_)
  match ax with
  | ⟨0, _⟩ => show 0 + 1 * m.val = m.val; omega
  | ⟨1, _⟩ => show o + 1 * a.val = 64 * h.val + a.val; omega

/-! ## The heads' array -/

/-- The 256 × 512 array the eight stores fill, as one function: row `r`, model lane `e`. -/
def headsOf (Qf : FVec Ideal S256x512 .f32) (Dd : FVec Ideal S256x1024 .f32) (KS VS : Vec Ideal S1024x512 .bf16) : S256x512.Idx → EReal :=
  fun y => heads (fun f => Qf (ix2 (y 0) f)) (fun m f => KS (ix2 m f)) (fun m f => VS (ix2 m f)) (fun m => Dd (ix2 (y 0) m)) (y 1)

/-- Head `h`'s store is the part of that array its rectangle names. -/
theorem piece_apply (Qf : FVec Ideal S256x512 .f32) (Dd : FVec Ideal S256x1024 .f32) (KS VS : Vec Ideal S1024x512 .bf16)
    (h : Fin 8) (o : Nat) (ho : o = 64 * h.val) (hs : S256x512.Slices ![0, o] S256x64)
    (inbK : ∀ a, (![0, o] : Fin 2 → Nat) a + S1024x64.size a ≤ S1024x512.size a)
    (inbP : ∀ a, (![0, o] : Fin 2 → Nat) a + S256x64.size a ≤ S256x512.size a) (x : S256x64.Idx) :
    headBlk (extractStridedSlice S256x64 ![0, o] Qf hs) (cols KS o inbK) (cols VS o inbK) Dd x
      = headsOf Qf Dd KS VS ((Rect.unit (s := S256x512) ![0, o] S256x64.size inbP).emb x) := by
  obtain ⟨r, j, rfl⟩ : ∃ (r : Fin 256) (j : Fin 64), x = ix2 r j := ⟨x 0, x 1, eq_ix2 x⟩
  have hemb : (Rect.unit (s := S256x512) ![0, o] S256x64.size inbP).emb (ix2 r j) = ix2 r (col h j) := by
    funext ax
    apply Fin.ext
    match ax with
    | ⟨0, _⟩ => show 0 + 1 * r.val = r.val; omega
    | ⟨1, _⟩ => show o + 1 * j.val = 64 * h.val + j.val; omega
  rw [headBlk_apply, hemb]
  have e1 : (fun a => extractStridedSlice S256x64 ![0, o] Qf hs (ix2 r a)) = fun a => Qf (ix2 r (col h a)) :=
    funext fun a => slice_col Qf h o ho hs r a
  have e2 : (fun m a => cols KS o inbK (ix2 m a)) = fun m a => KS (ix2 m (col h a)) :=
    funext fun m => funext fun a => cols_col KS h o ho inbK m a
  have e3 : (fun m a => cols VS o inbK (ix2 m a)) = fun m a => VS (ix2 m (col h a)) :=
    funext fun m => funext fun a => cols_col VS h o ho inbK m a
  rw [e1, e2, e3]
  show _ = heads (fun f => Qf (ix2 r f)) (fun m f => KS (ix2 m f)) (fun m f => VS (ix2 m f)) (fun m => Dd (ix2 r m)) (col h j)
  unfold heads
  rw [headOf_col, laneOf_col]

/-- Every store of the list agrees with the one array. -/
theorem pieces_agree (x4 : Vec Ideal S512x512 .f32) (x0 : Vec Ideal S1x256x512 .f32) (x5 : Vec Ideal S1x512 .f32) (x3 : Vec Ideal S1x256x1024 .f32)
    (KS VS : Vec Ideal S1024x512 .bf16) :
    ∀ p ∈ headPieces x4 x0 x5 x3 KS VS, ∀ x : p.1.shape.Idx, p.2 x = headsOf (k0_pay6 x4 x0 x5) (k0_pay7 x3) KS VS (p.1.emb x) := by
  intro p hp
  unfold headPieces at hp
  simp only [List.mem_cons, List.not_mem_nil, or_false] at hp
  rcases hp with rfl | rfl | rfl | rfl | rfl | rfl | rfl | rfl
  · intro x
    refine Eq.trans ?_ (piece_apply (k0_pay6 x4 x0 x5) (k0_pay7 x3) KS VS ⟨7, by omega⟩ 448 rfl slices_S256x512_o0_448_S256x64 inb_S1024x512_S1024x64_0_448 inb_S256x512_S256x64_0_448 x)
    rfl
  · intro x
    refine Eq.trans ?_ (piece_apply (k0_pay6 x4 x0 x5) (k0_pay7 x3) KS VS ⟨6, by omega⟩ 384 rfl slices_S256x512_o0_384_S256x64 inb_S1024x512_S1024x64_0_384 inb_S256x512_S256x64_0_384 x)
    rfl
  · intro x
    refine Eq.trans ?_ (piece_apply (k0_pay6 x4 x0 x5) (k0_pay7 x3) KS VS ⟨5, by omega⟩ 320 rfl slices_S256x512_o0_320_S256x64 inb_S1024x512_S1024x64_0_320 inb_S256x512_S256x64_0_320 x)
    rfl
  · intro x
    refine Eq.trans ?_ (piece_apply (k0_pay6 x4 x0 x5) (k0_pay7 x3) KS VS ⟨4, by omega⟩ 256 rfl slices_S256x512_o0_256_S256x64 inb_S1024x512_S1024x64_0_256 inb_S256x512_S256x64_0_256 x)
    rfl
  · intro x
    refine Eq.trans ?_ (piece_apply (k0_pay6 x4 x0 x5) (k0_pay7 x3) KS VS ⟨3, by omega⟩ 192 rfl slices_S256x512_o0_192_S256x64 inb_S1024x512_S1024x64_0_192 inb_S256x512_S256x64_0_192 x)
    rfl
  · intro x
    refine Eq.trans ?_ (piece_apply (k0_pay6 x4 x0 x5) (k0_pay7 x3) KS VS ⟨2, by omega⟩ 128 rfl slices_S256x512_o0_128_S256x64 inb_S1024x512_S1024x64_0_128 inb_S256x512_S256x64_0_128 x)
    rfl
  · intro x
    refine Eq.trans ?_ (piece_apply (k0_pay6 x4 x0 x5) (k0_pay7 x3) KS VS ⟨1, by omega⟩ 64 rfl slices_S256x512_o0_64_S256x64 inb_S1024x512_S1024x64_0_64 inb_S256x512_S256x64_0_64 x)
    rfl
  · intro x
    refine Eq.trans ?_ (piece_apply (k0_pay6 x4 x0 x5) (k0_pay7 x3) KS VS ⟨0, by omega⟩ 0 rfl slices_S256x512_o0_0_S256x64 inb_S1024x512_S1024x64_0_0 inb_S256x512_S256x64_0_0 x)
    rfl

/-- The eight rectangles cover the array: lane `e` lies in head `e / 64`'s. -/
theorem pieces_cover (x4 : Vec Ideal S512x512 .f32) (x0 : Vec Ideal S1x256x512 .f32) (x5 : Vec Ideal S1x512 .f32) (x3 : Vec Ideal S1x256x1024 .f32)
    (KS VS : Vec Ideal S1024x512 .bf16) (r : Fin 256) (e : Fin 512) :
    ∃ p ∈ headPieces x4 x0 x5 x3 KS VS, ix2 r e ∈ p.1.set := by
  have he := e.isLt
  rcases (by omega : (448 ≤ e.val ∧ e.val < 512) ∨ (384 ≤ e.val ∧ e.val < 448) ∨ (320 ≤ e.val ∧ e.val < 384) ∨ (256 ≤ e.val ∧ e.val < 320) ∨ (192 ≤ e.val ∧ e.val < 256) ∨ (128 ≤ e.val ∧ e.val < 192) ∨ (64 ≤ e.val ∧ e.val < 128) ∨ (0 ≤ e.val ∧ e.val < 64)) with h0 | h1 | h2 | h3 | h4 | h5 | h6 | h7
  · refine ⟨(headPieces x4 x0 x5 x3 KS VS)[0]'(by unfold headPieces; exact (by decide : 0 < 8)), List.getElem_mem _, ?_⟩
    show ix2 r e ∈ (Rect.unit (s := S256x512) ![0, 448] S256x64.size inb_S256x512_S256x64_0_448).set
    refine Rect.mem_set_unit.mpr fun a => ?_
    match a with
    | ⟨0, _⟩ => exact ⟨Nat.zero_le _, by show r.val < 0 + 256; have := r.isLt; omega⟩
    | ⟨1, _⟩ => exact ⟨by show 448 ≤ e.val; omega, by show e.val < 448 + 64; omega⟩
  · refine ⟨(headPieces x4 x0 x5 x3 KS VS)[1]'(by unfold headPieces; exact (by decide : 1 < 8)), List.getElem_mem _, ?_⟩
    show ix2 r e ∈ (Rect.unit (s := S256x512) ![0, 384] S256x64.size inb_S256x512_S256x64_0_384).set
    refine Rect.mem_set_unit.mpr fun a => ?_
    match a with
    | ⟨0, _⟩ => exact ⟨Nat.zero_le _, by show r.val < 0 + 256; have := r.isLt; omega⟩
    | ⟨1, _⟩ => exact ⟨by show 384 ≤ e.val; omega, by show e.val < 384 + 64; omega⟩
  · refine ⟨(headPieces x4 x0 x5 x3 KS VS)[2]'(by unfold headPieces; exact (by decide : 2 < 8)), List.getElem_mem _, ?_⟩
    show ix2 r e ∈ (Rect.unit (s := S256x512) ![0, 320] S256x64.size inb_S256x512_S256x64_0_320).set
    refine Rect.mem_set_unit.mpr fun a => ?_
    match a with
    | ⟨0, _⟩ => exact ⟨Nat.zero_le _, by show r.val < 0 + 256; have := r.isLt; omega⟩
    | ⟨1, _⟩ => exact ⟨by show 320 ≤ e.val; omega, by show e.val < 320 + 64; omega⟩
  · refine ⟨(headPieces x4 x0 x5 x3 KS VS)[3]'(by unfold headPieces; exact (by decide : 3 < 8)), List.getElem_mem _, ?_⟩
    show ix2 r e ∈ (Rect.unit (s := S256x512) ![0, 256] S256x64.size inb_S256x512_S256x64_0_256).set
    refine Rect.mem_set_unit.mpr fun a => ?_
    match a with
    | ⟨0, _⟩ => exact ⟨Nat.zero_le _, by show r.val < 0 + 256; have := r.isLt; omega⟩
    | ⟨1, _⟩ => exact ⟨by show 256 ≤ e.val; omega, by show e.val < 256 + 64; omega⟩
  · refine ⟨(headPieces x4 x0 x5 x3 KS VS)[4]'(by unfold headPieces; exact (by decide : 4 < 8)), List.getElem_mem _, ?_⟩
    show ix2 r e ∈ (Rect.unit (s := S256x512) ![0, 192] S256x64.size inb_S256x512_S256x64_0_192).set
    refine Rect.mem_set_unit.mpr fun a => ?_
    match a with
    | ⟨0, _⟩ => exact ⟨Nat.zero_le _, by show r.val < 0 + 256; have := r.isLt; omega⟩
    | ⟨1, _⟩ => exact ⟨by show 192 ≤ e.val; omega, by show e.val < 192 + 64; omega⟩
  · refine ⟨(headPieces x4 x0 x5 x3 KS VS)[5]'(by unfold headPieces; exact (by decide : 5 < 8)), List.getElem_mem _, ?_⟩
    show ix2 r e ∈ (Rect.unit (s := S256x512) ![0, 128] S256x64.size inb_S256x512_S256x64_0_128).set
    refine Rect.mem_set_unit.mpr fun a => ?_
    match a with
    | ⟨0, _⟩ => exact ⟨Nat.zero_le _, by show r.val < 0 + 256; have := r.isLt; omega⟩
    | ⟨1, _⟩ => exact ⟨by show 128 ≤ e.val; omega, by show e.val < 128 + 64; omega⟩
  · refine ⟨(headPieces x4 x0 x5 x3 KS VS)[6]'(by unfold headPieces; exact (by decide : 6 < 8)), List.getElem_mem _, ?_⟩
    show ix2 r e ∈ (Rect.unit (s := S256x512) ![0, 64] S256x64.size inb_S256x512_S256x64_0_64).set
    refine Rect.mem_set_unit.mpr fun a => ?_
    match a with
    | ⟨0, _⟩ => exact ⟨Nat.zero_le _, by show r.val < 0 + 256; have := r.isLt; omega⟩
    | ⟨1, _⟩ => exact ⟨by show 64 ≤ e.val; omega, by show e.val < 64 + 64; omega⟩
  · refine ⟨(headPieces x4 x0 x5 x3 KS VS)[7]'(by unfold headPieces; exact (by decide : 7 < 8)), List.getElem_mem _, ?_⟩
    show ix2 r e ∈ (Rect.unit (s := S256x512) ![0, 0] S256x64.size inb_S256x512_S256x64_0_0).set
    refine Rect.mem_set_unit.mpr fun a => ?_
    match a with
    | ⟨0, _⟩ => exact ⟨Nat.zero_le _, by show r.val < 0 + 256; have := r.isLt; omega⟩
    | ⟨1, _⟩ => exact ⟨by show 0 ≤ e.val; omega, by show e.val < 0 + 64; omega⟩

/-! ## The output block of a grid point -/

/-- Row `r`, lane `f` of the block: the specification's layer on row `r` of the query block and of the distance block, with the
    two caches as the batch's projected keys and values. -/
theorem bodyOut_apply (x0 : Vec Ideal S1x256x512 .f32) (x3 : Vec Ideal S1x256x1024 .f32) (x4 : Vec Ideal S512x512 .f32) (x5 : Vec Ideal S1x512 .f32)
    (x10 : Vec Ideal S512x512 .f32) (x11 : Vec Ideal S1x512 .f32) (KS VS : Vec Ideal S1024x512 .bf16) (u : Fin 1) (r : Fin 256) (f : Fin 512) :
    bodyOut x0 x3 x4 x5 x10 x11 KS VS (ix3 u r f)
      = attnRow (fun e => x0 (ix3 (0 : Fin 1) r e)) (fun mm => x3 (ix3 (0 : Fin 1) r mm)) (fun mm g => KS (ix2 mm g)) (fun mm g => VS (ix2 mm g))
          (fun g e => x4 (ix2 g e)) (fun g => x5 (ix2 (0 : Fin 1) g)) (fun g e => x10 (ix2 g e)) (fun g => x11 (ix2 (0 : Fin 1) g)) f := by
  unfold bodyOut
  rw [pay2_apply]
  unfold attnRow
  refine congrArg (fun C => linRow C (fun g e => x10 (ix2 g e)) (fun g => x11 (ix2 (0 : Fin 1) g)) f) (funext fun e => ?_)
  beta_reduce
  have hidx : (Rect.unit (s := S256x512) ![0, 0] ![256, 512] inb_S256x512_S256x512_0_0).toLoadRect.idx (ix2 r e) = ix2 r e := by
    funext ax
    apply Fin.ext
    match ax with
    | ⟨0, _⟩ => show 0 + 1 * r.val = r.val; omega
    | ⟨1, _⟩ => show 0 + 1 * e.val = e.val; omega
  rw [hidx, View.canon_apply_of_pieces (headsOf (k0_pay6 x4 x0 x5) (k0_pay7 x3) KS VS) _ (pieces_agree x4 x0 x5 x3 KS VS) (ix2 r e)
    (pieces_cover x4 x0 x5 x3 KS VS r e)]
  show heads (fun g => k0_pay6 x4 x0 x5 (ix2 r g)) (fun mm g => KS (ix2 mm g)) (fun mm g => VS (ix2 mm g)) (fun mm => k0_pay7 x3 (ix2 r mm)) e = _
  rw [show (fun g => k0_pay6 x4 x0 x5 (ix2 r g)) = linRow (fun e => x0 (ix3 (0 : Fin 1) r e)) (fun g e => x4 (ix2 g e)) (fun g => x5 (ix2 (0 : Fin 1) g))
        from funext fun g => pay6_apply x4 x0 x5 r g,
      show (fun mm => k0_pay7 x3 (ix2 r mm)) = fun mm => x3 (ix3 (0 : Fin 1) r mm) from funext fun mm => pay7_apply x3 r mm]

end Cert.KernelIdeal.Bridge

end
-- ==== Proof.AttnArray.lean ====
/-
  The attention layer on whole arrays: batch `b`, query row `n`, output lane `f`.

  The keys and values of batch `b` are projected row by row (`projArr`), and entry `(b, n, f)` of the result is the
  row-wise layer `attnRow` on query row `(b, n)`, the distances of that row, and the batch's projected keys and values.
-/
import proofs.«102871_j65541200937161_2_alg».proof.Proof.AttnSpec

noncomputable section

open scoped BigOperators

namespace Cert.AttnSpec

open Idealize.ShloMosaic Idealize.ShloMosaic.ValueIdx

abbrev Seq3 := (⟨3, ![16, 1024, 512]⟩ : Shape).Idx → EReal
abbrev Dist3 := (⟨3, ![16, 1024, 1024]⟩ : Shape).Idx → EReal
abbrev Mat2 := (⟨2, ![512, 512]⟩ : Shape).Idx → EReal
abbrev Vec1 := (⟨1, ![512]⟩ : Shape).Idx → EReal

/-- A linear layer applied to row `mm` of batch `b`: lane `g` of the projected row. -/
def projArr (x : Seq3) (W : Mat2) (c : Vec1) (b : Fin 16) (mm : Fin 1024) (g : Fin 512) : EReal :=
  linRow (fun e => x (ix3 b mm e)) (fun g e => W (ix2 g e)) (fun g => c (ix1 g)) g

/-- The whole layer as one function of the twelve argument arrays. -/
def attnArr (q k v : Seq3) (d : Dist3) (Wq : Mat2) (bq : Vec1) (Wk : Mat2) (bk : Vec1) (Wv : Mat2) (bv : Vec1) (Wp : Mat2) (bp : Vec1) : Seq3 :=
  fun i =>
    attnRow (fun e => q (ix3 (i 0) (i 1) e)) (fun mm => d (ix3 (i 0) (i 1) mm)) (projArr k Wk bk (i 0)) (projArr v Wv bv (i 0))
      (fun g e => Wq (ix2 g e)) (fun g => bq (ix1 g)) (fun g e => Wp (ix2 g e)) (fun g => bp (ix1 g)) (i 2)

end Cert.AttnSpec

end
-- ==== Proof.KernelValue.lean ====
/-
  The kernel's run over its grid, read as one function of the argument arrays.

  The grid has 16 × 4 points: point `t` works on batch `t / 4` and on query rows `256 (t mod 4)` to `256 (t mod 4) + 255`. The
  first point of a batch projects the batch's 1024 keys and values into two caches; the batch's other three points find them
  there. So after every point the caches hold the current batch's projected keys and values, and the block a point
  writes back is the specification's layer on its 256 query rows against them.
-/
import proofs.«102871_j65541200937161_2_alg».proof.Proof.KernelHead
import proofs.«102871_j65541200937161_2_alg».proof.Proof.AttnArray
import proofs.«102871_j65541200937161_2_alg».proof.Proof.Gen.KernelIdeal.Value
import Idealize.ShloMosaic.Lib.ValueLayout
import Idealize.ShloMosaic.Lib.StableHlo.Run

noncomputable section

open scoped BigOperators

namespace Cert.KernelIdeal.AttnValue

open Cert.KernelIdeal Cert.KernelIdeal.Gen Cert.KernelIdeal.Bridge
open Idealize.ShloMosaic Idealize.ShloMosaic.TcCoe Idealize.ShloMosaic.ValueIdx Idealize.SL.Sem
open Idealize.ShloMosaic.Pipeline (Dat)
open Cert.AttnSpec

variable (m : (ℓ : Loc nD τ sig) → Buf (Elt Ideal) ℓ) (ρ : Dev nD → PrngReg)

/-- The batch grid point `n` works on, and the array row of its block's row `r`. -/
def batchOf (n : ℕ) : Fin 16 := ⟨n / 4 % 16, Nat.mod_lt _ (by norm_num)⟩
def rowOf (n : ℕ) (r : Fin 256) : Fin 1024 := ⟨256 * (n % 4) + r.val, by have := r.isLt; omega⟩

/-! ## The index maps, decided over the 64 points -/

theorem idx_0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem idx_3 : ∀ t : Fin cfg0.N, win0_3.index t (0 : Fin 3) = t.val / 4 ∧ win0_3.index t (1 : Fin 3) = t.val % 4 ∧ win0_3.index t (2 : Fin 3) = 0 :=
  (by decide +kernel : ∀ t : Fin grid0.N, _)
theorem idx_12 : ∀ t : Fin cfg0.N, win0_12.index t (0 : Fin 3) = t.val / 4 ∧ win0_12.index t (1 : Fin 3) = t.val % 4 ∧ win0_12.index t (2 : Fin 3) = 0 :=
  (by decide +kernel : ∀ t : Fin grid0.N, _)
theorem idx_1 : ∀ t : Fin cfg0.N, win0_1.index t (0 : Fin 3) = t.val / 4 ∧ win0_1.index t (1 : Fin 3) = 0 ∧ win0_1.index t (2 : Fin 3) = 0 :=
  (by decide +kernel : ∀ t : Fin grid0.N, _)
theorem idx_2 : ∀ t : Fin cfg0.N, win0_2.index t (0 : Fin 3) = t.val / 4 ∧ win0_2.index t (1 : Fin 3) = 0 ∧ win0_2.index t (2 : Fin 3) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)
theorem idx_10 : ∀ t : Fin cfg0.N, win0_10.index t (0 : Fin 2) = 0 ∧ win0_10.index t (1 : Fin 2) = 0 :=
  (by decide +kernel : ∀ t : Fin grid0.N, _)
theorem idx_11 : ∀ t : Fin cfg0.N, win0_11.index t (0 : Fin 2) = 0 ∧ win0_11.index t (1 : Fin 2) = 0 :=
  (by decide +kernel : ∀ t : Fin grid0.N, _)

/-! ## Each input window's block is its array read where the point says -/

theorem blk0 (c : Dev nD) (t : Fin cfg0.N) (r : Fin 256) (e : Fin 512) :
    (iblk m c 0 t : Vec Ideal S1x256x512 .f32) (ix3 (0 : Fin 1) r e) = V m c main_arg0 (ix3 (batchOf t.val) (rowOf t.val r) e) := by
  have hN : t.val < 64 := lt_of_lt_of_eq t.isLt (show cfg0.N = 64 from N_0)
  obtain ⟨a0, a1, a2⟩ := idx_0 t
  show V m c main_arg0 (((cfg0.win 0).blk t).view.emb (ix3 (0 : Fin 1) r e)) = _
  refine congrArg (V m c main_arg0) (funext fun a => Fin.ext ?_)
  match a with
  | ⟨0, _⟩ => show win0_0.index t (0 : Fin 3) * 1 + 1 * 0 = t.val / 4 % 16; omega
  | ⟨1, _⟩ => show win0_0.index t (1 : Fin 3) * 256 + 1 * r.val = 256 * (t.val % 4) + r.val; omega
  | ⟨2, _⟩ => show win0_0.index t (2 : Fin 3) * 512 + 1 * e.val = e.val; omega

theorem blk1 (c : Dev nD) (t : Fin cfg0.N) (mm : Fin 1024) (e : Fin 512) :
    (iblk m c 1 t : Vec Ideal S1x1024x512 .f32) (ix3 (0 : Fin 1) mm e) = V m c main_arg1 (ix3 (batchOf t.val) mm e) := by
  have hN : t.val < 64 := lt_of_lt_of_eq t.isLt (show cfg0.N = 64 from N_0)
  obtain ⟨a0, a1, a2⟩ := idx_1 t
  show V m c main_arg1 (((cfg0.win 1).blk t).view.emb (ix3 (0 : Fin 1) mm e)) = _
  refine congrArg (V m c main_arg1) (funext fun a => Fin.ext ?_)
  match a with
  | ⟨0, _⟩ => show win0_1.index t (0 : Fin 3) * 1 + 1 * 0 = t.val / 4 % 16; omega
  | ⟨1, _⟩ => show win0_1.index t (1 : Fin 3) * 1024 + 1 * mm.val = mm.val; omega
  | ⟨2, _⟩ => show win0_1.index t (2 : Fin 3) * 512 + 1 * e.val = e.val; omega

theorem blk2 (c : Dev nD) (t : Fin cfg0.N) (mm : Fin 1024) (e : Fin 512) :
    (iblk m c 2 t : Vec Ideal S1x1024x512 .f32) (ix3 (0 : Fin 1) mm e) = V m c main_arg2 (ix3 (batchOf t.val) mm e) := by
  have hN : t.val < 64 := lt_of_lt_of_eq t.isLt (show cfg0.N = 64 from N_0)
  obtain ⟨a0, a1, a2⟩ := idx_2 t
  show V m c main_arg2 (((cfg0.win 2).blk t).view.emb (ix3 (0 : Fin 1) mm e)) = _
  refine congrArg (V m c main_arg2) (funext fun a => Fin.ext ?_)
  match a with
  | ⟨0, _⟩ => show win0_2.index t (0 : Fin 3) * 1 + 1 * 0 = t.val / 4 % 16; omega
  | ⟨1, _⟩ => show win0_2.index t (1 : Fin 3) * 1024 + 1 * mm.val = mm.val; omega
  | ⟨2, _⟩ => show win0_2.index t (2 : Fin 3) * 512 + 1 * e.val = e.val; omega

theorem blk3 (c : Dev nD) (t : Fin cfg0.N) (r : Fin 256) (e : Fin 1024) :
    (iblk m c 3 t : Vec Ideal S1x256x1024 .f32) (ix3 (0 : Fin 1) r e) = V m c main_arg3 (ix3 (batchOf t.val) (rowOf t.val r) e) := by
  have hN : t.val < 64 := lt_of_lt_of_eq t.isLt (show cfg0.N = 64 from N_0)
  obtain ⟨a0, a1, a2⟩ := idx_3 t
  show V m c main_arg3 (((cfg0.win 3).blk t).view.emb (ix3 (0 : Fin 1) r e)) = _
  refine congrArg (V m c main_arg3) (funext fun a => Fin.ext ?_)
  match a with
  | ⟨0, _⟩ => show win0_3.index t (0 : Fin 3) * 1 + 1 * 0 = t.val / 4 % 16; omega
  | ⟨1, _⟩ => show win0_3.index t (1 : Fin 3) * 256 + 1 * r.val = 256 * (t.val % 4) + r.val; omega
  | ⟨2, _⟩ => show win0_3.index t (2 : Fin 3) * 1024 + 1 * e.val = e.val; omega

theorem blk4 (c : Dev nD) (t : Fin cfg0.N) (g e : Fin 512) :
    (iblk m c 4 t : Vec Ideal S512x512 .f32) (ix2 g e) = V m c main_arg4 (ix2 g e) := by
  obtain ⟨a0, a1⟩ := idx_4 t
  show V m c main_arg4 (((cfg0.win 4).blk t).view.emb (ix2 g e)) = _
  refine congrArg (V m c main_arg4) (funext fun a => Fin.ext ?_)
  match a with
  | ⟨0, _⟩ => show win0_4.index t (0 : Fin 2) * 512 + 1 * g.val = g.val; omega
  | ⟨1, _⟩ => show win0_4.index t (1 : Fin 2) * 512 + 1 * e.val = e.val; omega

theorem blk5 (c : Dev nD) (t : Fin cfg0.N) (g : Fin 512) :
    (iblk m c 5 t : Vec Ideal S1x512 .f32) (ix2 (0 : Fin 1) g) = V m c main_v0 (ix2 (0 : Fin 1) g) := by
  obtain ⟨a0, a1⟩ := idx_5 t
  show V m c main_v0 (((cfg0.win 5).blk t).view.emb (ix2 (0 : Fin 1) g)) = _
  refine congrArg (V m c main_v0) (funext fun a => Fin.ext ?_)
  match a with
  | ⟨0, _⟩ => show win0_5.index t (0 : Fin 2) * 1 + 1 * 0 = 0; omega
  | ⟨1, _⟩ => show win0_5.index t (1 : Fin 2) * 512 + 1 * g.val = g.val; omega

theorem blk6 (c : Dev nD) (t : Fin cfg0.N) (g e : Fin 512) :
    (iblk m c 6 t : Vec Ideal S512x512 .f32) (ix2 g e) = V m c main_arg6 (ix2 g e) := by
  obtain ⟨a0, a1⟩ := idx_6 t
  show V m c main_arg6 (((cfg0.win 6).blk t).view.emb (ix2 g e)) = _
  refine congrArg (V m c main_arg6) (funext fun a => Fin.ext ?_)
  match a with
  | ⟨0, _⟩ => show win0_6.index t (0 : Fin 2) * 512 + 1 * g.val = g.val; omega
  | ⟨1, _⟩ => show win0_6.index t (1 : Fin 2) * 512 + 1 * e.val = e.val; omega

theorem blk7 (c : Dev nD) (t : Fin cfg0.N) (g : Fin 512) :
    (iblk m c 7 t : Vec Ideal S1x512 .f32) (ix2 (0 : Fin 1) g) = V m c main_v1 (ix2 (0 : Fin 1) g) := by
  obtain ⟨a0, a1⟩ := idx_7 t
  show V m c main_v1 (((cfg0.win 7).blk t).view.emb (ix2 (0 : Fin 1) g)) = _
  refine congrArg (V m c main_v1) (funext fun a => Fin.ext ?_)
  match a with
  | ⟨0, _⟩ => show win0_7.index t (0 : Fin 2) * 1 + 1 * 0 = 0; omega
  | ⟨1, _⟩ => show win0_7.index t (1 : Fin 2) * 512 + 1 * g.val = g.val; omega

theorem blk8 (c : Dev nD) (t : Fin cfg0.N) (g e : Fin 512) :
    (iblk m c 8 t : Vec Ideal S512x512 .f32) (ix2 g e) = V m c main_arg8 (ix2 g e) := by
  obtain ⟨a0, a1⟩ := idx_8 t
  show V m c main_arg8 (((cfg0.win 8).blk t).view.emb (ix2 g e)) = _
  refine congrArg (V m c main_arg8) (funext fun a => Fin.ext ?_)
  match a with
  | ⟨0, _⟩ => show win0_8.index t (0 : Fin 2) * 512 + 1 * g.val = g.val; omega
  | ⟨1, _⟩ => show win0_8.index t (1 : Fin 2) * 512 + 1 * e.val = e.val; omega

theorem blk9 (c : Dev nD) (t : Fin cfg0.N) (g : Fin 512) :
    (iblk m c 9 t : Vec Ideal S1x512 .f32) (ix2 (0 : Fin 1) g) = V m c main_v2 (ix2 (0 : Fin 1) g) := by
  obtain ⟨a0, a1⟩ := idx_9 t
  show V m c main_v2 (((cfg0.win 9).blk t).view.emb (ix2 (0 : Fin 1) g)) = _
  refine congrArg (V m c main_v2) (funext fun a => Fin.ext ?_)
  match a with
  | ⟨0, _⟩ => show win0_9.index t (0 : Fin 2) * 1 + 1 * 0 = 0; omega
  | ⟨1, _⟩ => show win0_9.index t (1 : Fin 2) * 512 + 1 * g.val = g.val; omega

theorem blk10 (c : Dev nD) (t : Fin cfg0.N) (g e : Fin 512) :
    (iblk m c 10 t : Vec Ideal S512x512 .f32) (ix2 g e) = V m c main_arg10 (ix2 g e) := by
  obtain ⟨a0, a1⟩ := idx_10 t
  show V m c main_arg10 (((cfg0.win 10).blk t).view.emb (ix2 g e)) = _
  refine congrArg (V m c main_arg10) (funext fun a => Fin.ext ?_)
  match a with
  | ⟨0, _⟩ => show win0_10.index t (0 : Fin 2) * 512 + 1 * g.val = g.val; omega
  | ⟨1, _⟩ => show win0_10.index t (1 : Fin 2) * 512 + 1 * e.val = e.val; omega

theorem blk11 (c : Dev nD) (t : Fin cfg0.N) (g : Fin 512) :
    (iblk m c 11 t : Vec Ideal S1x512 .f32) (ix2 (0 : Fin 1) g) = V m c main_v3 (ix2 (0 : Fin 1) g) := by
  obtain ⟨a0, a1⟩ := idx_11 t
  show V m c main_v3 (((cfg0.win 11).blk t).view.emb (ix2 (0 : Fin 1) g)) = _
  refine congrArg (V m c main_v3) (funext fun a => Fin.ext ?_)
  match a with
  | ⟨0, _⟩ => show win0_11.index t (0 : Fin 2) * 1 + 1 * 0 = 0; omega
  | ⟨1, _⟩ => show win0_11.index t (1 : Fin 2) * 512 + 1 * g.val = g.val; omega

/-! ## The projected keys and values of a batch -/

/-- Batch `b`'s projected keys: row `mm`, lane `g`. -/
def kp (c : Dev nD) (b : Fin 16) (mm : Fin 1024) (g : Fin 512) : EReal :=
  linRow (fun e => V m c main_arg1 (ix3 b mm e)) (fun g e => V m c main_arg6 (ix2 g e)) (fun g => V m c main_v1 (ix2 (0 : Fin 1) g)) g

/-- Batch `b`'s projected values. -/
def vp (c : Dev nD) (b : Fin 16) (mm : Fin 1024) (g : Fin 512) : EReal :=
  linRow (fun e => V m c main_arg2 (ix3 b mm e)) (fun g e => V m c main_arg8 (ix2 g e)) (fun g => V m c main_v2 (ix2 (0 : Fin 1) g)) g

/-- What the two caches hold after point `n`. -/
def cacheK (c : Dev nD) (n : ℕ) : Vec Ideal S1024x512 .bf16 := fun y => kp m c (batchOf n) (y 0) (y 1)
def cacheV (c : Dev nD) (n : ℕ) : Vec Ideal S1024x512 .bf16 := fun y => vp m c (batchOf n) (y 0) (y 1)

/-- A batch's first point fills the key cache with the batch's projected keys … -/
theorem fillK (c : Dev nD) (t : Fin cfg0.N) : k0_pay3 (iblk m c 6 t) (iblk m c 1 t) (iblk m c 7 t) = cacheK m c t.val := by
  funext y
  obtain ⟨mm, g, rfl⟩ : ∃ (mm : Fin 1024) (g : Fin 512), y = ix2 mm g := ⟨y 0, y 1, eq_ix2 y⟩
  refine (pay3_apply (iblk m c 6 t) (iblk m c 1 t) (iblk m c 7 t) mm g).trans ?_
  show _ = kp m c (batchOf t.val) mm g
  unfold kp linRow
  exact congrArg₂ (· + ·) (Finset.sum_congr rfl fun e _ => congrArg₂ (· * ·) (blk1 m c t mm e) (blk6 m c t g e)) (blk7 m c t g)

/-- … and the value cache with its projected values. -/
theorem fillV (c : Dev nD) (t : Fin cfg0.N) : k0_pay4 (iblk m c 8 t) (iblk m c 2 t) (iblk m c 9 t) = cacheV m c t.val := by
  funext y
  obtain ⟨mm, g, rfl⟩ : ∃ (mm : Fin 1024) (g : Fin 512), y = ix2 mm g := ⟨y 0, y 1, eq_ix2 y⟩
  refine (pay4_apply (iblk m c 8 t) (iblk m c 2 t) (iblk m c 9 t) mm g).trans ?_
  show _ = vp m c (batchOf t.val) mm g
  unfold vp linRow
  exact congrArg₂ (· + ·) (Finset.sum_congr rfl fun e _ => congrArg₂ (· * ·) (blk2 m c t mm e) (blk8 m c t g e)) (blk9 m c t g)

/-! ## After every point: the block it wrote and the two caches -/

/-- The block point `t` leaves for the write-back, from its input blocks and the caches. -/
def blockOut (c : Dev nD) (t : Fin cfg0.N) : Vec Ideal S1x256x512 .f32 :=
  bodyOut (iblk m c 0 t) (iblk m c 3 t) (iblk m c 4 t) (iblk m c 5 t) (iblk m c 10 t) (iblk m c 11 t) (cacheK m c t.val) (cacheV m c t.val)

/-- A point that is not a batch's first is in the batch of the point before it. -/
theorem batchOf_pred (n : ℕ) (h : ¬n % 4 = 0) : batchOf (n - 1) = batchOf n :=
  Fin.ext (by show (n - 1) / 4 % 16 = n / 4 % 16; omega)

set_option maxHeartbeats 400000 in
/-- A batch's first point. -/
theorem outs_first (c : Dev nD) (t : Fin cfg0.N) (h0 : t.val % 4 = 0) :
    outsAt0 m c t.val t.isLt = (blockOut m c t, cacheK m c t.val, cacheV m c t.val) := by
  have hA := outA_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  have hK := cacheK_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  have hV := cacheV_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  rw [fillK m c t, fillV m c t] at hA
  rw [fillK m c t] at hK
  rw [fillV m c t] at hV
  exact (outsAt0_A m c t h0).trans (congrArg₂ Prod.mk hA (congrArg₂ Prod.mk hK hV))

set_option maxHeartbeats 400000 in
/-- A later point of a batch, given what the point before left in the caches. -/
theorem outs_later (c : Dev nD) (t : Fin cfg0.N) (h0 : ¬t.val % 4 = 0)
    (ihK : (outsAt0 m c (t.val - 1) (Nat.lt_of_le_of_lt (Nat.sub_le _ _) t.isLt)).2.1 = cacheK m c (t.val - 1))
    (ihV : (outsAt0 m c (t.val - 1) (Nat.lt_of_le_of_lt (Nat.sub_le _ _) t.isLt)).2.2 = cacheV m c (t.val - 1)) :
    outsAt0 m c t.val t.isLt = (blockOut m c t, cacheK m c t.val, cacheV m c t.val) := by
  have hk : cacheK m c (t.val - 1) = cacheK m c t.val := by unfold cacheK; rw [batchOf_pred _ h0]
  have hv : cacheV m c (t.val - 1) = cacheV m c t.val := by unfold cacheV; rw [batchOf_pred _ h0]
  have hB := outB_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (mt (hcond0_0 t).mp h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (cacheK m c t.val) (cacheV m c t.val)
  rw [outsAt0_B m c t h0, ihK, ihV, hk, hv]
  exact congrArg₂ Prod.mk hB rfl

/-- After every point. -/
theorem outs_eq (c : Dev nD) (t : Fin cfg0.N) :
    outsAt0 m c t.val t.isLt = (blockOut m c t, cacheK m c t.val, cacheV m c t.val) := by
  obtain ⟨n, hn⟩ := t
  induction n using Nat.strong_induction_on with
  | _ n ih =>
    by_cases h0 : n % 4 = 0
    · exact outs_first m c ⟨n, hn⟩ h0
    · have hp := ih (n - 1) (by omega) (Nat.lt_of_le_of_lt (Nat.sub_le _ _) hn)
      refine outs_later m c ⟨n, hn⟩ h0 ?_ ?_
      · rw [hp]
      · rw [hp]

/-! ## The bias rows the call is given are the bias vectors -/

theorem bias5 (c : Dev nD) (g : Fin 512) : V m c main_v0 (ix2 (0 : Fin 1) g) = (m ((c : Thread nD τ).loc main_arg5)) (ix1 g) := by
  have e : (V m c main_v0 : S1x512.Idx → EReal) = shapeCast S1x512 (m ((c : Thread nD τ).loc main_arg5)) shapeCasts_S512_S1x512 := by
    dsimp only [V, hostOps0]; after_results; rfl
  rw [e]
  exact shapeCast_a_1a_apply _ shapeCasts_S512_S1x512 (0 : Fin 1) g

theorem bias7 (c : Dev nD) (g : Fin 512) : V m c main_v1 (ix2 (0 : Fin 1) g) = (m ((c : Thread nD τ).loc main_arg7)) (ix1 g) := by
  have e : (V m c main_v1 : S1x512.Idx → EReal) = shapeCast S1x512 (m ((c : Thread nD τ).loc main_arg7)) shapeCasts_S512_S1x512 := by
    dsimp only [V, hostOps0]; after_results; rfl
  rw [e]
  exact shapeCast_a_1a_apply _ shapeCasts_S512_S1x512 (0 : Fin 1) g

theorem bias9 (c : Dev nD) (g : Fin 512) : V m c main_v2 (ix2 (0 : Fin 1) g) = (m ((c : Thread nD τ).loc main_arg9)) (ix1 g) := by
  have e : (V m c main_v2 : S1x512.Idx → EReal) = shapeCast S1x512 (m ((c : Thread nD τ).loc main_arg9)) shapeCasts_S512_S1x512 := by
    dsimp only [V, hostOps0]; after_results; rfl
  rw [e]
  exact shapeCast_a_1a_apply _ shapeCasts_S512_S1x512 (0 : Fin 1) g

theorem bias11 (c : Dev nD) (g : Fin 512) : V m c main_v3 (ix2 (0 : Fin 1) g) = (m ((c : Thread nD τ).loc main_arg11)) (ix1 g) := by
  have e : (V m c main_v3 : S1x512.Idx → EReal) = shapeCast S1x512 (m ((c : Thread nD τ).loc main_arg11)) shapeCasts_S512_S1x512 := by
    dsimp only [V, hostOps0]; after_results; rfl
  rw [e]
  exact shapeCast_a_1a_apply _ shapeCasts_S512_S1x512 (0 : Fin 1) g

/-! ## What a point writes back, and the array the run leaves -/

/-- The attention layer of the twelve argument arrays. -/
def layerOut (c : Dev nD) : S16x1024x512.Idx → EReal :=
  attnArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- WHAT POINT `t` WRITES BACK is block `t` of that array: rows `256 (t mod 4)` on of batch `t / 4`. -/
theorem flushed_eq (c : Dev nD) (t : Fin cfg0.N) :
    (dats m 0 c).flushed 12 t = ((cfg0.win 12).blk t).view.read (Elt Ideal) (layerOut m c) := by
  rw [Cert.KernelIdeal.Value.flushed12 m c t]
  have h1 : (outsAt0 m c t.val t.isLt).1 = blockOut m c t := by simp only [outs_eq m c t]
  rw [h1]
  funext y
  obtain ⟨u, r, f, rfl⟩ : ∃ (u : Fin 1) (r : Fin 256) (f : Fin 512), y = ix3 u r f := ⟨y 0, y 1, y 2, eq_ix3 y⟩
  have hN : t.val < 64 := lt_of_lt_of_eq t.isLt (show cfg0.N = 64 from N_0)
  obtain ⟨a0, a1, a2⟩ := idx_12 t
  have hu : u.val = 0 := by omega
  have hemb : ((cfg0.win 12).blk t).view.emb (ix3 u r f) = ix3 (batchOf t.val) (rowOf t.val r) f := by
    funext a
    apply Fin.ext
    match a with
    | ⟨0, _⟩ => show win0_12.index t (0 : Fin 3) * 1 + 1 * u.val = t.val / 4 % 16; omega
    | ⟨1, _⟩ => show win0_12.index t (1 : Fin 3) * 256 + 1 * r.val = 256 * (t.val % 4) + r.val; omega
    | ⟨2, _⟩ => show win0_12.index t (2 : Fin 3) * 512 + 1 * f.val = f.val; omega
  generalize hB : blockOut m c t = B
  show B (ix3 u r f) = layerOut m c (((cfg0.win 12).blk t).view.emb (ix3 u r f))
  rw [hemb, ← hB]
  unfold blockOut
  refine (bodyOut_apply (iblk m c 0 t) (iblk m c 3 t) (iblk m c 4 t) (iblk m c 5 t) (iblk m c 10 t) (iblk m c 11 t) (cacheK m c t.val) (cacheV m c t.val) u r f).trans ?_
  have e0 : (fun e => (iblk m c 0 t : Vec Ideal S1x256x512 .f32) (ix3 (0 : Fin 1) r e)) = fun e => (m ((c : Thread nD τ).loc main_arg0)) (ix3 (batchOf t.val) (rowOf t.val r) e) :=
    funext fun e => by rw [blk0 m c t r e, V_main_arg0]
  have e3 : (fun mm => (iblk m c 3 t : Vec Ideal S1x256x1024 .f32) (ix3 (0 : Fin 1) r mm)) = fun mm => (m ((c : Thread nD τ).loc main_arg3)) (ix3 (batchOf t.val) (rowOf t.val r) mm) :=
    funext fun mm => by rw [blk3 m c t r mm, V_main_arg3]
  have eK : (fun mm g => cacheK m c t.val (ix2 mm g)) = projArr (m ((c : Thread nD τ).loc main_arg1)) (m ((c : Thread nD τ).loc main_arg6)) (m ((c : Thread nD τ).loc main_arg7)) (batchOf t.val) :=
    funext fun mm => funext fun g => by
      show kp m c (batchOf t.val) mm g = _
      unfold kp projArr
      rw [V_main_arg1, V_main_arg6, show (fun g => V m c main_v1 (ix2 (0 : Fin 1) g)) = fun g => (m ((c : Thread nD τ).loc main_arg7)) (ix1 g) from funext (bias7 m c)]
  have eV : (fun mm g => cacheV m c t.val (ix2 mm g)) = projArr (m ((c : Thread nD τ).loc main_arg2)) (m ((c : Thread nD τ).loc main_arg8)) (m ((c : Thread nD τ).loc main_arg9)) (batchOf t.val) :=
    funext fun mm => funext fun g => by
      show vp m c (batchOf t.val) mm g = _
      unfold vp projArr
      rw [V_main_arg2, V_main_arg8, show (fun g => V m c main_v2 (ix2 (0 : Fin 1) g)) = fun g => (m ((c : Thread nD τ).loc main_arg9)) (ix1 g) from funext (bias9 m c)]
  have e4 : (fun g e => (iblk m c 4 t : Vec Ideal S512x512 .f32) (ix2 g e)) = fun g e => (m ((c : Thread nD τ).loc main_arg4)) (ix2 g e) :=
    funext fun g => funext fun e => by rw [blk4 m c t g e, V_main_arg4]
  have e5 : (fun g => (iblk m c 5 t : Vec Ideal S1x512 .f32) (ix2 (0 : Fin 1) g)) = fun g => (m ((c : Thread nD τ).loc main_arg5)) (ix1 g) :=
    funext fun g => by rw [blk5 m c t g, bias5]
  have e10 : (fun g e => (iblk m c 10 t : Vec Ideal S512x512 .f32) (ix2 g e)) = fun g e => (m ((c : Thread nD τ).loc main_arg10)) (ix2 g e) :=
    funext fun g => funext fun e => by rw [blk10 m c t g e, V_main_arg10]
  have e11 : (fun g => (iblk m c 11 t : Vec Ideal S1x512 .f32) (ix2 (0 : Fin 1) g)) = fun g => (m ((c : Thread nD τ).loc main_arg11)) (ix1 g) :=
    funext fun g => by rw [blk11 m c t g, bias11]
  rw [e0, e3, eK, eV, e4, e5, e10, e11]
  rfl

/-- An index of the array is in point `t`'s block iff each coordinate is in the block's range on its axis. -/
theorem mem_blk (t : Fin cfg0.N) (i : S16x1024x512.Idx) :
    i ∈ ((cfg0.win 12).blk t).view.set ↔ ∀ a : Fin 3, win0_12.index t a * S1x256x512.size a ≤ (i a).val ∧ (i a).val < win0_12.index t a * S1x256x512.size a + S1x256x512.size a := by
  show i ∈ ((View.whole main_v4).slice (win0_12.rect t)).set ↔ _
  rw [View.set_slice_whole, Rect.mem_set_unit]
  exact Iff.rfl

/-- Every index is in some point's block: batch `b`, row `n` is point `4 b + n / 256`'s. -/
theorem covered (i : S16x1024x512.Idx) :
    ∃ t : Fin cfg0.N, (cfg0.win 12).flush t = true ∧ i ∈ ((cfg0.win 12).blk t).view.set := by
  have h0 : (i 0).val < 16 := (i 0).isLt
  have h1 : (i 1).val < 1024 := (i 1).isLt
  have h2 : (i 2).val < 512 := (i 2).isLt
  have hlt : 4 * (i 0).val + (i 1).val / 256 < cfg0.N := by
    show 4 * (i 0).val + (i 1).val / 256 < grid0.N
    rw [N_0]; omega
  refine ⟨⟨4 * (i 0).val + (i 1).val / 256, hlt⟩, flush0_12 _, ?_⟩
  obtain ⟨a0, a1, a2⟩ := idx_12 ⟨4 * (i 0).val + (i 1).val / 256, hlt⟩
  have b0 : win0_12.index ⟨4 * (i 0).val + (i 1).val / 256, hlt⟩ (0 : Fin 3) = (4 * (i 0).val + (i 1).val / 256) / 4 := a0
  have b1 : win0_12.index ⟨4 * (i 0).val + (i 1).val / 256, hlt⟩ (1 : Fin 3) = (4 * (i 0).val + (i 1).val / 256) % 4 := a1
  have b2 : win0_12.index ⟨4 * (i 0).val + (i 1).val / 256, hlt⟩ (2 : Fin 3) = 0 := a2
  rw [mem_blk]
  intro a
  match a with
  | ⟨0, _⟩ =>
    show win0_12.index ⟨4 * (i 0).val + (i 1).val / 256, hlt⟩ (0 : Fin 3) * 1 ≤ (i 0).val ∧ (i 0).val < win0_12.index ⟨4 * (i 0).val + (i 1).val / 256, hlt⟩ (0 : Fin 3) * 1 + 1
    omega
  | ⟨1, _⟩ =>
    show win0_12.index ⟨4 * (i 0).val + (i 1).val / 256, hlt⟩ (1 : Fin 3) * 256 ≤ (i 1).val ∧ (i 1).val < win0_12.index ⟨4 * (i 0).val + (i 1).val / 256, hlt⟩ (1 : Fin 3) * 256 + 256
    omega
  | ⟨2, _⟩ =>
    show win0_12.index ⟨4 * (i 0).val + (i 1).val / 256, hlt⟩ (2 : Fin 3) * 512 ≤ (i 2).val ∧ (i 2).val < win0_12.index ⟨4 * (i 0).val + (i 1).val / 256, hlt⟩ (2 : Fin 3) * 512 + 512
    omega

/-- THE ARRAY after the run. -/
theorem final (c : Dev nD) : (dats m 0 c).arrAt 12 cfg0.N = layerOut m c :=
  (dats m 0 c).arrAt_eq_of_cover 12 (layerOut m c) (fun t _ => flushed_eq m c t) covered

/-- The kernel's run, read: the result array holds the attention layer of the arguments, which end unchanged. -/
theorem run : θ_run defs (onTc (τ := τ) (main (F := Ideal))) ⟨m, fun _ => 0, ρ⟩ fun r => ∀ c : Dev nD,
      r.2.mem ((c : Thread nD τ).loc main_v4) = layerOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Cert.KernelIdeal.Value.run_blocks m ρ)

end Cert.KernelIdeal.AttnValue

end
-- ==== Proof.RefValue.lean ====
/-
  The reference program, read stage by stage, is the attention layer `attnArr` of its twelve arguments.

  Each stage of the reference's straight-line program is read at an index from the stages before it: the three
  projections; their heads (a reshape to 8 × 64 lanes and a transpose, which at `(b, h, n, e)` read lane `64 h + e` of row
  `(b, n)`); the scaled logits plus distances; the row maximum (a fold of `max` from −∞, and a further `max` with −∞ that
  changes nothing); the exponentials; the weights (the sum from 0 is the sum); each head's output; and the output
  projection of the heads put back side by side.
-/
import proofs.«102871_j65541200937161_2_alg».proof.Proof.Gen.ReferenceIdeal.Read
import proofs.«102871_j65541200937161_2_alg».proof.Proof.AttnArray
import Mathlib.Data.Finset.Fold

noncomputable section

open scoped BigOperators

namespace Cert.ReferenceIdeal.RefValue

open Cert.ReferenceIdeal Cert.ReferenceIdeal.Gen Cert.ReferenceIdeal.Read
open Idealize.ShloMosaic Idealize.ShloMosaic.ValueIdx
open Cert.AttnSpec

/-- Two index functions with the same coordinates are equal: one macro per rank. -/
local macro "idx_rfl1" : tactic => `(tactic| (funext a; apply Fin.ext; match a with | ⟨0, _⟩ => rfl))
local macro "idx_rfl2" : tactic => `(tactic| (funext a; apply Fin.ext; match a with | ⟨0, _⟩ => rfl | ⟨1, _⟩ => rfl))
local macro "idx_rfl3" : tactic => `(tactic| (funext a; apply Fin.ext; match a with | ⟨0, _⟩ => rfl | ⟨1, _⟩ => rfl | ⟨2, _⟩ => rfl))
local macro "idx_rfl4" : tactic => `(tactic| (funext a; apply Fin.ext; match a with | ⟨0, _⟩ => rfl | ⟨1, _⟩ => rfl | ⟨2, _⟩ => rfl | ⟨3, _⟩ => rfl))

/-- The q projection, at `(b, n, g)`. -/
theorem proj_q (x0 : (⟨S16x1024x512, .f32⟩ : BufTy).Contents (Elt Ideal)) (x4 : (⟨S512x512, .f32⟩ : BufTy).Contents (Elt Ideal)) (x5 : (⟨S512, .f32⟩ : BufTy).Contents (Elt Ideal)) (b : Fin 16) (n : Fin 1024) (g : Fin 512) :
    val_main_v3 (F := Ideal) x0 x4 x5 (ix3 b n g) = projArr x0 x4 x5 b n g := by
  rw [val_main_v3_apply, val_main_v0_apply, val_main_v2_apply, val_main_v1_apply]
  unfold projArr linRow
  refine congrArg₂ (· + ·) (Finset.sum_congr rfl fun k _ => congrArg₂ (· * ·) (congrArg x0 ?_) (congrArg x4 ?_)) (congrArg x5 ?_)
  · idx_rfl3
  · idx_rfl2
  · idx_rfl1

/-- … cut into heads and moved head-major: at `(b, h, n, e)` it is lane `col h e` of row `(b, n)`. -/
theorem heads_q (x0 : (⟨S16x1024x512, .f32⟩ : BufTy).Contents (Elt Ideal)) (x4 : (⟨S512x512, .f32⟩ : BufTy).Contents (Elt Ideal)) (x5 : (⟨S512, .f32⟩ : BufTy).Contents (Elt Ideal)) (b : Fin 16) (h : Fin 8) (n : Fin 1024) (e : Fin 64) :
    val_main_v5 (F := Ideal) x0 x4 x5 (ix4 b h n e) = projArr x0 x4 x5 b n (col h e) := by
  rw [val_main_v5_apply, val_main_v4_apply]
  have hi : idx_main_v4 (idx_main_v5 (ix4 b h n e)) = ix3 b n (col h e) := by
    have := b.isLt; have := h.isLt; have := n.isLt; have := e.isLt
    funext a
    apply Fin.ext
    match a with
    | ⟨0, _⟩ => show ((((b.val * 1024 + n.val) * 8 + h.val) * 64 + e.val) / 524288 = b.val); omega
    | ⟨1, _⟩ => show ((((b.val * 1024 + n.val) * 8 + h.val) * 64 + e.val) / 512 % 1024 = n.val); omega
    | ⟨2, _⟩ => show ((((b.val * 1024 + n.val) * 8 + h.val) * 64 + e.val) % 512 = 64 * h.val + e.val); omega
  rw [hi]
  exact proj_q x0 x4 x5 b n (col h e)

/-- The k projection, at `(b, n, g)`. -/
theorem proj_k (x1 : (⟨S16x1024x512, .f32⟩ : BufTy).Contents (Elt Ideal)) (x6 : (⟨S512x512, .f32⟩ : BufTy).Contents (Elt Ideal)) (x7 : (⟨S512, .f32⟩ : BufTy).Contents (Elt Ideal)) (b : Fin 16) (n : Fin 1024) (g : Fin 512) :
    val_main_v9 (F := Ideal) x1 x6 x7 (ix3 b n g) = projArr x1 x6 x7 b n g := by
  rw [val_main_v9_apply, val_main_v6_apply, val_main_v8_apply, val_main_v7_apply]
  unfold projArr linRow
  refine congrArg₂ (· + ·) (Finset.sum_congr rfl fun k _ => congrArg₂ (· * ·) (congrArg x1 ?_) (congrArg x6 ?_)) (congrArg x7 ?_)
  · idx_rfl3
  · idx_rfl2
  · idx_rfl1

/-- … cut into heads and moved head-major: at `(b, h, n, e)` it is lane `col h e` of row `(b, n)`. -/
theorem heads_k (x1 : (⟨S16x1024x512, .f32⟩ : BufTy).Contents (Elt Ideal)) (x6 : (⟨S512x512, .f32⟩ : BufTy).Contents (Elt Ideal)) (x7 : (⟨S512, .f32⟩ : BufTy).Contents (Elt Ideal)) (b : Fin 16) (h : Fin 8) (n : Fin 1024) (e : Fin 64) :
    val_main_v11 (F := Ideal) x1 x6 x7 (ix4 b h n e) = projArr x1 x6 x7 b n (col h e) := by
  rw [val_main_v11_apply, val_main_v10_apply]
  have hi : idx_main_v10 (idx_main_v11 (ix4 b h n e)) = ix3 b n (col h e) := by
    have := b.isLt; have := h.isLt; have := n.isLt; have := e.isLt
    funext a
    apply Fin.ext
    match a with
    | ⟨0, _⟩ => show ((((b.val * 1024 + n.val) * 8 + h.val) * 64 + e.val) / 524288 = b.val); omega
    | ⟨1, _⟩ => show ((((b.val * 1024 + n.val) * 8 + h.val) * 64 + e.val) / 512 % 1024 = n.val); omega
    | ⟨2, _⟩ => show ((((b.val * 1024 + n.val) * 8 + h.val) * 64 + e.val) % 512 = 64 * h.val + e.val); omega
  rw [hi]
  exact proj_k x1 x6 x7 b n (col h e)

/-- The v projection, at `(b, n, g)`. -/
theorem proj_v (x2 : (⟨S16x1024x512, .f32⟩ : BufTy).Contents (Elt Ideal)) (x8 : (⟨S512x512, .f32⟩ : BufTy).Contents (Elt Ideal)) (x9 : (⟨S512, .f32⟩ : BufTy).Contents (Elt Ideal)) (b : Fin 16) (n : Fin 1024) (g : Fin 512) :
    val_main_v15 (F := Ideal) x2 x8 x9 (ix3 b n g) = projArr x2 x8 x9 b n g := by
  rw [val_main_v15_apply, val_main_v12_apply, val_main_v14_apply, val_main_v13_apply]
  unfold projArr linRow
  refine congrArg₂ (· + ·) (Finset.sum_congr rfl fun k _ => congrArg₂ (· * ·) (congrArg x2 ?_) (congrArg x8 ?_)) (congrArg x9 ?_)
  · idx_rfl3
  · idx_rfl2
  · idx_rfl1

/-- … cut into heads and moved head-major: at `(b, h, n, e)` it is lane `col h e` of row `(b, n)`. -/
theorem heads_v (x2 : (⟨S16x1024x512, .f32⟩ : BufTy).Contents (Elt Ideal)) (x8 : (⟨S512x512, .f32⟩ : BufTy).Contents (Elt Ideal)) (x9 : (⟨S512, .f32⟩ : BufTy).Contents (Elt Ideal)) (b : Fin 16) (h : Fin 8) (n : Fin 1024) (e : Fin 64) :
    val_main_v17 (F := Ideal) x2 x8 x9 (ix4 b h n e) = projArr x2 x8 x9 b n (col h e) := by
  rw [val_main_v17_apply, val_main_v16_apply]
  have hi : idx_main_v16 (idx_main_v17 (ix4 b h n e)) = ix3 b n (col h e) := by
    have := b.isLt; have := h.isLt; have := n.isLt; have := e.isLt
    funext a
    apply Fin.ext
    match a with
    | ⟨0, _⟩ => show ((((b.val * 1024 + n.val) * 8 + h.val) * 64 + e.val) / 524288 = b.val); omega
    | ⟨1, _⟩ => show ((((b.val * 1024 + n.val) * 8 + h.val) * 64 + e.val) / 512 % 1024 = n.val); omega
    | ⟨2, _⟩ => show ((((b.val * 1024 + n.val) * 8 + h.val) * 64 + e.val) % 512 = 64 * h.val + e.val); omega
  rw [hi]
  exact proj_v x2 x8 x9 b n (col h e)

/-- The logit of key `mm` for head `h` of query row `(b, n)`. -/
theorem logit_apply (x0 x1 : (⟨S16x1024x512, .f32⟩ : BufTy).Contents (Elt Ideal)) (x3 : (⟨S16x1024x1024, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (b : Fin 16) (h : Fin 8) (n mm : Fin 1024) :
    val_main_v23 (F := Ideal) x0 x1 x3 x4 x5 x6 x7 (ix4 b h n mm) = logit (fun a => projArr x0 x4 x5 b n (col h a)) (fun m' a => projArr x1 x6 x7 b m' (col h a)) (fun m' => x3 (ix3 b n m')) mm := by
  rw [val_main_v23_apply, val_main_v20_apply, val_main_v18_apply, val_main_v19_apply, val_main_cst_apply, val_main_v22_apply, val_main_v21_apply]
  have hl : ∀ k : Fin 64, lidx_main_v18 (ix4 b h n mm) k = ix4 b h n k := fun k => by idx_rfl4
  have hr : ∀ k : Fin 64, ridx_main_v18 (ix4 b h n mm) k = ix4 b h mm k := fun k => by idx_rfl4
  have hd : idx_main_v21 (idx_main_v22 (ix4 b h n mm)) = ix3 b n mm := by idx_rfl3
  simp only [hl, hr, hd, heads_q, heads_k]
  rfl

/-- The row's maximum. -/
theorem rowMax_apply (x0 x1 : (⟨S16x1024x512, .f32⟩ : BufTy).Contents (Elt Ideal)) (x3 : (⟨S16x1024x1024, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (b : Fin 16) (h : Fin 8) (n : Fin 1024) :
    val_main_v26 (F := Ideal) x0 x1 x3 x4 x5 x6 x7 (ix3 b h n) = rowMax (fun a => projArr x0 x4 x5 b n (col h a)) (fun m' a => projArr x1 x6 x7 b m' (col h a)) (fun m' => x3 (ix3 b n m')) := by
  have hR : S16x8x1024x1024.Reduces [3] S16x8x1024 := by decide
  rw [val_main_v26_apply, val_main_v25_apply, val_main_cst_1_apply]
  unfold val_main_v24
  rw [Host.reduce_eq_fold_single FloatOps.maximumf _ _ reducesTo_S16x8x1024x1024_S16x8x1024_d3 hR h_S_ (ix3 b h n)]
  have hf : (val_main_v23 (F := Ideal) x0 x1 x3 x4 x5 x6 x7 ∘ hR.lift (ix3 b h n)) = logit (fun a => projArr x0 x4 x5 b n (col h a)) (fun m' a => projArr x1 x6 x7 b m' (col h a)) (fun m' => x3 (ix3 b n m')) := funext fun k => by
    show val_main_v23 (F := Ideal) x0 x1 x3 x4 x5 x6 x7 (hR.lift (ix3 b h n) k) = _
    rw [show hR.lift (ix3 b h n) k = ix4 b h n k from by idx_rfl4]
    exact logit_apply x0 x1 x3 x4 x5 x6 x7 b h n k
  rw [hf]
  unfold rowMax
  show max negInf ((Finset.univ : Finset (Fin 1024)).fold max negInf (logit (fun a => projArr x0 x4 x5 b n (col h a)) (fun m' a => projArr x1 x6 x7 b m' (col h a)) (fun m' => x3 (ix3 b n m')))) = _
  refine max_eq_right ?_
  rw [Finset.le_fold_max]
  exact Or.inl le_rfl

/-- The exponential of a logit less the row's maximum. -/
theorem expo_apply (x0 x1 : (⟨S16x1024x512, .f32⟩ : BufTy).Contents (Elt Ideal)) (x3 : (⟨S16x1024x1024, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (b : Fin 16) (h : Fin 8) (n mm : Fin 1024) :
    val_main_v30 (F := Ideal) x0 x1 x3 x4 x5 x6 x7 (ix4 b h n mm) = expo (fun a => projArr x0 x4 x5 b n (col h a)) (fun m' a => projArr x1 x6 x7 b m' (col h a)) (fun m' => x3 (ix3 b n m')) mm := by
  rw [val_main_v30_apply, val_main_v29_apply, val_main_v28_apply, val_main_v27_apply,
    show idx_main_v27 (idx_main_v28 (ix4 b h n mm)) = ix3 b h n from by idx_rfl3, logit_apply, rowMax_apply]
  rfl

/-- The attention weight. -/
theorem weight_apply (x0 x1 : (⟨S16x1024x512, .f32⟩ : BufTy).Contents (Elt Ideal)) (x3 : (⟨S16x1024x1024, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (b : Fin 16) (h : Fin 8) (n mm : Fin 1024) :
    val_main_v36 (F := Ideal) x0 x1 x3 x4 x5 x6 x7 (ix4 b h n mm) = weight (fun a => projArr x0 x4 x5 b n (col h a)) (fun m' a => projArr x1 x6 x7 b m' (col h a)) (fun m' => x3 (ix3 b n m')) mm := by
  rw [val_main_v36_apply, val_main_v34_apply, val_main_v33_apply, val_main_v32_apply, val_main_v31_apply, val_main_cst_2_apply,
    val_main_v35_apply, val_main_v21_apply,
    show idx_main_v32 (idx_main_v33 (ix4 b h n mm)) = ix3 b h n from by idx_rfl3,
    show idx_main_v21 (idx_main_v35 (ix4 b h n mm)) = ix3 b n mm from by idx_rfl3]
  have hs : ∀ k : Fin 1024, idx_main_v31 (ix3 b h n) k = ix4 b h n k := fun k => by idx_rfl4
  simp only [hs, expo_apply]
  unfold weight
  show Ideal.div _ (Ideal.ofBits .f32 0x00000000#32 + _) * _ = _
  rw [Ideal.ofBits_zero_f32, zero_add]

/-- One head's output lane. -/
theorem head_apply (x0 x1 x2 : (⟨S16x1024x512, .f32⟩ : BufTy).Contents (Elt Ideal)) (x3 : (⟨S16x1024x1024, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512x512, .f32⟩ : BufTy).Contents (Elt Ideal)) (x9 : (⟨S512, .f32⟩ : BufTy).Contents (Elt Ideal)) (b : Fin 16) (h : Fin 8) (n : Fin 1024) (j : Fin 64) :
    val_main_v37 (F := Ideal) x0 x1 x2 x3 x4 x5 x6 x7 x8 x9 (ix4 b h n j) = head (fun a => projArr x0 x4 x5 b n (col h a)) (fun m' a => projArr x1 x6 x7 b m' (col h a)) (fun m' a => projArr x2 x8 x9 b m' (col h a)) (fun m' => x3 (ix3 b n m')) j := by
  rw [val_main_v37_apply]
  have hl : ∀ k : Fin 1024, lidx_main_v37 (ix4 b h n j) k = ix4 b h n k := fun k => by idx_rfl4
  have hr : ∀ k : Fin 1024, ridx_main_v37 (ix4 b h n j) k = ix4 b h k j := fun k => by idx_rfl4
  simp only [hl, hr, weight_apply, heads_v]
  rfl

/-- The reference's result is the attention layer of its arguments. -/
theorem ref_is_attn (x0 x1 x2 : (⟨S16x1024x512, .f32⟩ : BufTy).Contents (Elt Ideal)) (x3 : (⟨S16x1024x1024, .f32⟩ : BufTy).Contents (Elt Ideal)) (x4 : (⟨S512x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512x512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) :
    val_main_v43 (F := Ideal) x0 x1 x2 x3 x4 x5 x6 x7 x8 x9 x10 x11 = attnArr x0 x1 x2 x3 x4 x5 x6 x7 x8 x9 x10 x11 := by
  funext i
  obtain ⟨b, n, f, rfl⟩ : ∃ (b : Fin 16) (n : Fin 1024) (f : Fin 512), i = ix3 b n f := ⟨i 0, i 1, i 2, eq_ix3 i⟩
  rw [val_main_v43_apply, val_main_v40_apply, val_main_v42_apply, val_main_v41_apply]
  have hl : ∀ k : Fin 512, lidx_main_v40 (ix3 b n f) k = ix3 b n k := fun k => by idx_rfl3
  have hr : ∀ k : Fin 512, ridx_main_v40 (ix3 b n f) k = ix2 f k := fun k => by idx_rfl2
  have hb : idx_main_v41 (idx_main_v42 (ix3 b n f)) = ix1 f := by idx_rfl1
  have hv : ∀ k : Fin 512, val_main_v39 (F := Ideal) x0 x1 x2 x3 x4 x5 x6 x7 x8 x9 (ix3 b n k)
      = heads (fun g => projArr x0 x4 x5 b n g) (projArr x1 x6 x7 b) (projArr x2 x8 x9 b) (fun m' => x3 (ix3 b n m')) k := fun k => by
    rw [val_main_v39_apply, val_main_v38_apply]
    have hi : idx_main_v38 (idx_main_v39 (ix3 b n k)) = ix4 b (headOf k) n (laneOf k) := by
      have := b.isLt; have := n.isLt; have := k.isLt
      funext a
      apply Fin.ext
      match a with
      | ⟨0, _⟩ => show (((b.val * 1024 + n.val) * 512 + k.val) / 524288 = b.val); omega
      | ⟨1, _⟩ => show (((b.val * 1024 + n.val) * 512 + k.val) / 64 % 8 = k.val / 64); omega
      | ⟨2, _⟩ => show (((b.val * 1024 + n.val) * 512 + k.val) / 512 % 1024 = n.val); omega
      | ⟨3, _⟩ => show (((b.val * 1024 + n.val) * 512 + k.val) % 64 = k.val % 64); omega
    rw [hi]
    exact head_apply x0 x1 x2 x3 x4 x5 x6 x7 x8 x9 b (headOf k) n (laneOf k)
  simp only [hl, hr, hb, hv]
  rfl

end Cert.ReferenceIdeal.RefValue

end
-- ==== Proof.lean ====
/-
  The kernel and its reference compute one function.

  The kernel is a fused attention block on a 16 × 4 grid: a grid point takes 256 query rows of one batch, projects them,
  and for each of eight heads forms the scaled logits against the batch's 1024 projected keys plus a distance bias, takes
  the row softmax (subtract the row maximum, exponentiate, divide by the row sum), multiplies by the distances once more,
  and multiplies by the batch's projected values; the heads' results, side by side, go through an output projection. The
  batch's projected keys and values are computed at the batch's first point and kept for its other three. The reference
  computes the same layer on whole arrays: three projections, a reshape into heads, two batched contractions around the
  softmax, and the output projection.

  Over the extended reals both are the function `attnArr` of the twelve argument arrays, entry by entry: a change of float
  format is the identity, a product into a zero accumulator and a sum from zero are the plain sums, a maximum with −∞ on top
  of a maximum seeded at −∞ changes nothing, and 1/8 is the same word on both sides. No law that fails at infinities is
  used, so the precondition is not opened. The idealization rewrote nothing, so `preserves` is `True`.

  The kernel's side (`KernelValue.run`): every point's output block is the specification's layer on the point's rows against
  the two caches, which after every point hold the current batch's projected keys and values (induction over the points);
  the 64 blocks cover the result array. The reference's side (`RefValue.ref_is_attn`): its program read stage by stage.
-/
import proofs.«102871_j65541200937161_2_alg».proof.Defs
import proofs.«102871_j65541200937161_2_alg».proof.Proof.Gen.Kernel
import proofs.«102871_j65541200937161_2_alg».proof.Proof.Gen.Kernel.Skeleton
import proofs.«102871_j65541200937161_2_alg».proof.Proof.Gen.Kernel.Launch
import proofs.«102871_j65541200937161_2_alg».proof.Proof.Gen.Kernel.Points
import proofs.«102871_j65541200937161_2_alg».proof.Proof.Gen.Kernel.Frame
import proofs.«102871_j65541200937161_2_alg».proof.Proof.Gen.KernelIdeal
import proofs.«102871_j65541200937161_2_alg».proof.Proof.Gen.KernelIdeal.Skeleton
import proofs.«102871_j65541200937161_2_alg».proof.Proof.Gen.KernelIdeal.Launch
import proofs.«102871_j65541200937161_2_alg».proof.Proof.Gen.KernelIdeal.Points
import proofs.«102871_j65541200937161_2_alg».proof.Proof.Gen.KernelIdeal.Frame
import proofs.«102871_j65541200937161_2_alg».proof.Proof.Gen.KernelIdeal.Value
import proofs.«102871_j65541200937161_2_alg».proof.Proof.Gen.ReferenceIdeal
import proofs.«102871_j65541200937161_2_alg».proof.Proof.Gen.ReferenceIdeal.Run
import proofs.«102871_j65541200937161_2_alg».proof.Proof.Gen.ReferenceIdeal.Read
import proofs.«102871_j65541200937161_2_alg».proof.Proof.Gen.Pre_finite_inputs
import Idealize.ShloMosaic.Adequacy
import Idealize.ShloMosaic.Init
import proofs.«102871_j65541200937161_2_alg».proof.Proof.KernelValue
import proofs.«102871_j65541200937161_2_alg».proof.Proof.RefValue

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized. -/
theorem preserves : Cert.preserves_Kernel_KernelIdeal := trivial

/-- From memories that agree on the arguments, both programs end with the attention layer of the arguments in their
    result array. -/
theorem algebraic : Cert.algebraic_KernelIdeal_ReferenceIdeal := by
  intro m ρ m' ρ' _ hagree
  refine ⟨fun c => Cert.KernelIdeal.AttnValue.layerOut m c, Cert.KernelIdeal.AttnValue.run m ρ, ?_⟩
  refine (θ_run Cert.ReferenceIdeal.defs _ _).mono (fun r h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v43_eq, Cert.ReferenceIdeal.RefValue.ref_is_attn, a0, a1, a2, a3, a4, a5, a6, a7, a8, a9, a10, a11]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
